-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4880 : Shape := ⟨1, ![4880]⟩
abbrev S4880x28 : Shape := ⟨2, ![4880, 28]⟩
abbrev S128x28 : Shape := ⟨2, ![128, 28]⟩
abbrev S4880x4880 : Shape := ⟨2, ![4880, 4880]⟩
abbrev S56x32 : Shape := ⟨2, ![56, 32]⟩
abbrev S32 : Shape := ⟨1, ![32]⟩
abbrev S_ : Shape := ⟨0, ![]⟩

class Facts : Prop where
  bcast_S_S4880 : S_.BroadcastsInDim S4880 (![] : Fin 0 → Fin S4880.rank)
  reducesTo_S4880_S_d0 : S4880.ReducesTo [0] S_
  h_S_ : 0 < S_.numel
  bcast_S_S4880x28 : S_.BroadcastsInDim S4880x28 (![] : Fin 0 → Fin S4880x28.rank)
  reducesTo_S4880x28_S_d0_1 : S4880x28.ReducesTo [0, 1] S_
  bcast_S_S128x28 : S_.BroadcastsInDim S128x28 (![] : Fin 0 → Fin S128x28.rank)
  reducesTo_S128x28_S_d0_1 : S128x28.ReducesTo [0, 1] S_
  bcast_S_S4880x4880 : S_.BroadcastsInDim S4880x4880 (![] : Fin 0 → Fin S4880x4880.rank)
  reducesTo_S4880x4880_S_d0_1 : S4880x4880.ReducesTo [0, 1] S_
  bcast_S_S56x32 : S_.BroadcastsInDim S56x32 (![] : Fin 0 → Fin S56x32.rank)
  reducesTo_S56x32_S_d0_1 : S56x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S128x28 .f32) (main_arg6 : FVec F S4880x4880 .f32) (main_arg7 : FVec F S56x32 .f32) (main_arg8 : FVec F S32 .f32) (main_v13 : IVec S_ 1) (main_v16 : IVec S4880x28 1) : IVec S_ 1 :=
  let main_c_5 : IVec S_ 1 := constantI S_ 1 1#1
  let main_v17 : IVec S_ 1 := (fun x v => Host.reduce IntOp.andi x v reducesTo_S4880x28_S_d0_1 h_S_) main_v16 main_c_5
  let main_v18 : IVec S_ 1 := andi main_v13 main_v17
  let main_v19 : FVec F S128x28 .f32 := Host.absf main_arg4
  let main_cst_6 : FVec F S_ .f32 := constant S_ .f32 0x7F800000#32
  let main_v20 : FVec F S128x28 .f32 := broadcastInDim S128x28 ![] bcast_S_S128x28 main_cst_6
  let main_v21 : IVec S128x28 1 := cmpf .olt main_v19 main_v20
  let main_c_7 : IVec S_ 1 := constantI S_ 1 1#1
  let main_v22 : IVec S_ 1 := (fun x v => Host.reduce IntOp.andi x v reducesTo_S128x28_S_d0_1 h_S_) main_v21 main_c_7
  let main_v23 : IVec S_ 1 := andi main_v18 main_v22
  let main_v24 : FVec F S4880x4880 .f32 := Host.absf main_arg6
  let main_cst_8 : FVec F S_ .f32 := constant S_ .f32 0x7F800000#32
  let main_v25 : FVec F S4880x4880 .f32 := broadcastInDim S4880x4880 ![] bcast_S_S4880x4880 main_cst_8
  let main_v26 : IVec S4880x4880 1 := cmpf .olt main_v24 main_v25
  let main_c_9 : IVec S_ 1 := constantI S_ 1 1#1
  let main_v27 : IVec S_ 1 := (fun x v => Host.reduce IntOp.andi x v reducesTo_S4880x4880_S_d0_1 h_S_) main_v26 main_c_9
  let main_v28 : IVec S_ 1 := andi main_v23 main_v27
  let main_v29 : FVec F S56x32 .f32 := Host.absf main_arg7
  let main_cst_10 : FVec F S_ .f32 := constant S_ .f32 0x7F800000#32
  let main_v30 : FVec F S56x32 .f32 := broadcastInDim S56x32 ![] bcast_S_S56x32 main_cst_10
  let main_v31 : IVec S56x32 1 := cmpf .olt main_v29 main_v30
  let main_c_11 : IVec S_ 1 := constantI S_ 1 1#1
  let main_v32 : IVec S_ 1 := (fun x v => Host.reduce IntOp.andi x v reducesTo_S56x32_S_d0_1 h_S_) main_v31 main_c_11
  let main_v33 : IVec S_ 1 := andi main_v28 main_v32
  fn_part2 (F := F) main_arg8 main_v33

def fn {F : FTy → Type} [FloatOps F] (main_arg0 : FVec F S4880 .f32) (main_arg1 : FVec F S4880 .f32) (main_arg2 : FVec F S4880x28 .f32) (main_arg3 : FVec F S4880x28 .f32) (main_arg4 : FVec F S128x28 .f32) (main_arg5 : IVec S4880 32) (main_arg6 : FVec F S4880x4880 .f32) (main_arg7 : FVec F S56x32 .f32) (main_arg8 : FVec F S32 .f32) : IVec S_ 1 :=
  let main_v0 : FVec F S4880 .f32 := Host.absf main_arg0
  let main_cst : FVec F S_ .f32 := constant S_ .f32 0x7F800000#32
  let main_v1 : FVec F S4880 .f32 := broadcastInDim S4880 ![] bcast_S_S4880 main_cst
  let main_v2 : IVec S4880 1 := cmpf .olt main_v0 main_v1
  let main_c : IVec S_ 1 := constantI S_ 1 1#1
  let main_v3 : IVec S_ 1 := (fun x v => Host.reduce IntOp.andi x v reducesTo_S4880_S_d0 h_S_) main_v2 main_c
  let main_v4 : FVec F S4880 .f32 := Host.absf main_arg1
  let main_cst_0 : FVec F S_ .f32 := constant S_ .f32 0x7F800000#32
  let main_v5 : FVec F S4880 .f32 := broadcastInDim S4880 ![] bcast_S_S4880 main_cst_0
  let main_v6 : IVec S4880 1 := cmpf .olt main_v4 main_v5
  let main_c_1 : IVec S_ 1 := constantI S_ 1 1#1
  let main_v7 : IVec S_ 1 := (fun x v => Host.reduce IntOp.andi x v reducesTo_S4880_S_d0 h_S_) main_v6 main_c_1
  let main_v8 : IVec S_ 1 := andi main_v3 main_v7
  let main_v9 : FVec F S4880x28 .f32 := Host.absf main_arg2
  let main_cst_2 : FVec F S_ .f32 := constant S_ .f32 0x7F800000#32
  let main_v10 : FVec F S4880x28 .f32 := broadcastInDim S4880x28 ![] bcast_S_S4880x28 main_cst_2
  let main_v11 : IVec S4880x28 1 := cmpf .olt main_v9 main_v10
  let main_c_3 : IVec S_ 1 := constantI S_ 1 1#1
  let main_v12 : IVec S_ 1 := (fun x v => Host.reduce IntOp.andi x v reducesTo_S4880x28_S_d0_1 h_S_) main_v11 main_c_3
  let main_v13 : IVec S_ 1 := andi main_v8 main_v12
  let main_v14 : FVec F S4880x28 .f32 := Host.absf main_arg3
  let main_cst_4 : FVec F S_ .f32 := constant S_ .f32 0x7F800000#32
  let main_v15 : FVec F S4880x28 .f32 := broadcastInDim S4880x28 ![] bcast_S_S4880x28 main_cst_4
  let main_v16 : IVec S4880x28 1 := cmpf .olt main_v14 main_v15
  fn_part1 (F := F) main_arg4 main_arg6 main_arg7 main_arg8 main_v13 main_v16
-- ==== Kernel.lean ====
abbrev S4880 : Shape := ⟨1, ![4880]⟩
abbrev S4880x28 : Shape := ⟨2, ![4880, 28]⟩
abbrev S128x28 : Shape := ⟨2, ![128, 28]⟩
abbrev S4880x4880 : Shape := ⟨2, ![4880, 4880]⟩
abbrev S56x32 : Shape := ⟨2, ![56, 32]⟩
abbrev S32 : Shape := ⟨1, ![32]⟩
abbrev S4880x1 : Shape := ⟨2, ![4880, 1]⟩
abbrev S_ : Shape := ⟨0, ![]⟩
abbrev S4880x56 : Shape := ⟨2, ![4880, 56]⟩
abbrev S4880x2 : Shape := ⟨2, ![4880, 2]⟩
abbrev S1x32 : Shape := ⟨2, ![1, 32]⟩
abbrev S4880x32 : Shape := ⟨2, ![4880, 32]⟩
abbrev S488x4880 : Shape := ⟨2, ![488, 4880]⟩
abbrev S488x56 : Shape := ⟨2, ![488, 56]⟩
abbrev S488x2 : Shape := ⟨2, ![488, 2]⟩
abbrev S488x32 : Shape := ⟨2, ![488, 32]⟩
abbrev S488x1 : Shape := ⟨2, ![488, 1]⟩

abbrev nBuf : Space → Nat
  | .hbm => 47
  | .vmem => 15
  | .smem => 0
  | _ => 0

abbrev bufTy : (tb : Table) → Fin (tcTables nBuf tb) → BufTy
  | .hbm, ⟨0, _⟩ => ⟨S4880, .f32⟩
  | .hbm, ⟨1, _⟩ => ⟨S4880, .f32⟩
  | .hbm, ⟨2, _⟩ => ⟨S4880x28, .f32⟩
  | .hbm, ⟨3, _⟩ => ⟨S4880x28, .f32⟩
  | .hbm, ⟨4, _⟩ => ⟨S128x28, .f32⟩
  | .hbm, ⟨5, _⟩ => ⟨S4880, .i32⟩
  | .hbm, ⟨6, _⟩ => ⟨S4880x4880, .f32⟩
  | .hbm, ⟨7, _⟩ => ⟨S56x32, .f32⟩
  | .hbm, ⟨8, _⟩ => ⟨S32, .f32⟩
  | .hbm, ⟨9, _⟩ => ⟨S4880x1, .f32⟩
  | .hbm, ⟨10, _⟩ => ⟨S4880x1, .f32⟩
  | .hbm, ⟨11, _⟩ => ⟨S4880x28, .f32⟩
  | .hbm, ⟨12, _⟩ => ⟨S4880x28, .f32⟩
  | .hbm, ⟨13, _⟩ => ⟨S_, .i32⟩
  | .hbm, ⟨14, _⟩ => ⟨S4880, .i32⟩
  | .hbm, ⟨15, _⟩ => ⟨S4880, .i1⟩
  | .hbm, ⟨16, _⟩ => ⟨S_, .i32⟩
  | .hbm, ⟨17, _⟩ => ⟨S4880, .i32⟩
  | .hbm, ⟨18, _⟩ => ⟨S4880, .i32⟩
  | .hbm, ⟨19, _⟩ => ⟨S4880, .i32⟩
  | .hbm, ⟨20, _⟩ => ⟨S4880x1, .i32⟩
  | .hbm, ⟨21, _⟩ => ⟨S4880x28, .f32⟩
  | .hbm, ⟨22, _⟩ => ⟨S4880x28, .f32⟩
  | .hbm, ⟨23, _⟩ => ⟨S4880x28, .f32⟩
  | .hbm, ⟨24, _⟩ => ⟨S4880x28, .f32⟩
  | .hbm, ⟨25, _⟩ => ⟨S4880x28, .f32⟩
  | .hbm, ⟨26, _⟩ => ⟨S4880x56, .f32⟩
  | .hbm, ⟨27, _⟩ => ⟨S4880x28, .f32⟩
  | .hbm, ⟨28, _⟩ => ⟨S4880x28, .f32⟩
  | .hbm, ⟨29, _⟩ => ⟨S_, .i32⟩
  | .hbm, ⟨30, _⟩ => ⟨S4880, .i32⟩
  | .hbm, ⟨31, _⟩ => ⟨S4880, .i1⟩
  | .hbm, ⟨32, _⟩ => ⟨S_, .i32⟩
  | .hbm, ⟨33, _⟩ => ⟨S4880, .i32⟩
  | .hbm, ⟨34, _⟩ => ⟨S4880, .i32⟩
  | .hbm, ⟨35, _⟩ => ⟨S4880, .i32⟩
  | .hbm, ⟨36, _⟩ => ⟨S4880x1, .i32⟩
  | .hbm, ⟨37, _⟩ => ⟨S4880x28, .f32⟩
  | .hbm, ⟨38, _⟩ => ⟨S4880x28, .f32⟩
  | .hbm, ⟨39, _⟩ => ⟨S4880x28, .f32⟩
  | .hbm, ⟨40, _⟩ => ⟨S4880x56, .f32⟩
  | .hbm, ⟨41, _⟩ => ⟨S4880x56, .f32⟩
  | .hbm, ⟨42, _⟩ => ⟨S4880x56, .bf16⟩
  | .hbm, ⟨43, _⟩ => ⟨S4880x2, .f32⟩
  | .hbm, ⟨44, _⟩ => ⟨S1x32, .f32⟩
  | .hbm, ⟨45, _⟩ => ⟨S4880x32, .f32⟩
  | .hbm, ⟨46, _⟩ => ⟨S4880x32, .f32⟩
  | .local _ .vmem, ⟨0, _⟩ => ⟨S488x4880, .f32⟩
  | .local _ .vmem, ⟨1, _⟩ => ⟨S488x4880, .f32⟩
  | .local _ .vmem, ⟨2, _⟩ => ⟨S4880x56, .bf16⟩
  | .local _ .vmem, ⟨3, _⟩ => ⟨S488x56, .f32⟩
  | .local _ .vmem, ⟨4, _⟩ => ⟨S488x56, .f32⟩
  | .local _ .vmem, ⟨5, _⟩ => ⟨S488x56, .f32⟩
  | .local _ .vmem, ⟨6, _⟩ => ⟨S488x56, .f32⟩
  | .local _ .vmem, ⟨7, _⟩ => ⟨S488x2, .f32⟩
  | .local _ .vmem, ⟨8, _⟩ => ⟨S488x2, .f32⟩
  | .local _ .vmem, ⟨9, _⟩ => ⟨S56x32, .f32⟩
  | .local _ .vmem, ⟨10, _⟩ => ⟨S1x32, .f32⟩
  | .local _ .vmem, ⟨11, _⟩ => ⟨S488x32, .f32⟩
  | .local _ .vmem, ⟨12, _⟩ => ⟨S488x32, .f32⟩
  | .local _ .vmem, ⟨13, _⟩ => ⟨S488x32, .f32⟩
  | .local _ .vmem, ⟨14, _⟩ => ⟨S488x32, .f32⟩
  | _, _ => ⟨S4880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S488x4880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4880x56 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S488x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S488x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S488x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S56x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S488x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S488x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S4880_S4880x1_0 : S4880.BroadcastsInDim S4880x1 (![0] : Fin 1 → Fin S4880x1.rank)
  bcast_S4880x1_S4880x28_0_1 : S4880x1.BroadcastsInDim S4880x28 (![0, 1] : Fin 2 → Fin S4880x28.rank)
  bcast_S_S4880 : S_.BroadcastsInDim S4880 (![] : Fin 0 → Fin S4880.rank)
  concatenates_S4880x28_S4880x28_S4880x56_d1 : Shape.Concatenates [S4880x28, S4880x28] S4880x56 1
  bitsLt_bf16_f32 : FTy.bits .bf16 < FTy.bits .f32
  concatenates_S4880x1_S4880x1_S4880x2_d1 : Shape.Concatenates [S4880x1, S4880x1] S4880x2 1
  shapeCasts_S32_S1x32 : S32.ShapeCasts S1x32
  inb_S488x4880_S488x4880_0_0 : ∀ a, (![0, 0] : Fin 2 → Nat) a + S488x4880.size a ≤ S488x4880.size a
  h_S488x4880 : 0 < S488x4880.numel
  inb_S4880x56_S4880x56_0_0 : ∀ a, (![0, 0] : Fin 2 → Nat) a + S4880x56.size a ≤ S4880x56.size a
  h_S4880x56 : 0 < S4880x56.numel
  shapeCasts_S4880x56_S4880x56 : S4880x56.ShapeCasts S4880x56
  inb_S488x56_S488x56_0_0 : ∀ a, (![0, 0] : Fin 2 → Nat) a + S488x56.size a ≤ S488x56.size a
  h_S488x56 : 0 < S488x56.numel
  shapeCasts_S488x56_S488x56 : S488x56.ShapeCasts S488x56
  inb_S488x2_S488x2_0_0 : ∀ a, (![0, 0] : Fin 2 → Nat) a + S488x2.size a ≤ S488x2.size a
  h_S488x2 : 0 < S488x2.numel
  shapeCasts_S488x2_S488x2 : S488x2.ShapeCasts S488x2
  slices_S488x2_o0_0_S488x1 : S488x2.Slices ![0, 0] S488x1
  slices_S488x2_o0_1_S488x1 : S488x2.Slices ![0, 1] S488x1
  broadcasts_S488x1_S488x56 : S488x1.Broadcasts S488x56
  inb_S56x32_S56x32_0_0 : ∀ a, (![0, 0] : Fin 2 → Nat) a + S56x32.size a ≤ S56x32.size a
  h_S56x32 : 0 < S56x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S488x32 : S1x32.Broadcasts S488x32
  inb_S488x32_S488x32_0_0 : ∀ a, (![0, 0] : Fin 2 → Nat) a + S488x32.size a ≤ S488x32.size a
  h_S488x32 : 0 < S488x32.numel
  gather_S128x28_S4880x1_S4880x28_1_0_n_n_0_1_128_wf : GatherDims.WF S128x28 S4880x1 S4880x28 [1] [0] [] [0] [] 1 ![1, 28]
  gather_S4880x28_S4880x1_S4880x28_1_0_n_n_0_1_128_wf : GatherDims.WF S4880x28 S4880x1 S4880x28 [1] [0] [] [0] [] 1 ![1, 28]
  dot_S488x4880_S4880x56_S488x56_1_0_0_1_n_n_wf : DotDims.WF S488x4880 S4880x56 S488x56 [1] [0] [0] [1] [] []
  dot_S488x56_S56x32_S488x32_1_0_0_1_n_n_wf : DotDims.WF S488x56 S56x32 S488x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S488x4880.size a ≤ S4880x4880.size a
  hwx0_0 : ∀ i : grid0.Coords, EltTy.bits .f32 = 32 ∨ (Rect.block (s := S4880x4880) S488x4880.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4880x56.size a ≤ S4880x56.size a
  hwx0_1 : ∀ i : grid0.Coords, EltTy.bits .bf16 = 32 ∨ (Rect.block (s := S4880x56) S4880x56.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S488x56.size a ≤ S4880x56.size a
  hwx0_2 : ∀ i : grid0.Coords, EltTy.bits .f32 = 32 ∨ (Rect.block (s := S4880x56) S488x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S488x56.size a ≤ S4880x56.size a
  hwx0_3 : ∀ i : grid0.Coords, EltTy.bits .f32 = 32 ∨ (Rect.block (s := S4880x56) S488x56.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S488x2.size a ≤ S4880x2.size a
  hwx0_4 : ∀ i : grid0.Coords, EltTy.bits .f32 = 32 ∨ (Rect.block (s := S4880x2) S488x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S56x32.size a ≤ S56x32.size a
  hwx0_5 : ∀ i : grid0.Coords, EltTy.bits .f32 = 32 ∨ (Rect.block (s := S56x32) S56x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S488x32.size a ≤ S4880x32.size a
  hwx0_7 : ∀ i : grid0.Coords, EltTy.bits .f32 = 32 ∨ (Rect.block (s := S4880x32) S488x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S488x32.size a ≤ S4880x32.size a
  hwx0_8 : ∀ i : grid0.Coords, EltTy.bits .f32 = 32 ∨ (Rect.block (s := S4880x32) S488x32.size (cc0_transform_8 i) (hinb0_8 i)).WholeWords (EltTy.packing .f32)

variable [Facts₀]

def gather_S128x28_S4880x1_S4880x28_1_0_n_n_0_1_128 : GatherDims S128x28 S4880x1 S4880x28 where
  offsetDims := [1]
  collapsedSliceDims := [0]
  operandBatchingDims := []
  startIndicesBatchingDims := []
  startIndexMap := [0]
  indexVectorDim := 1
  sliceSizes := ![1, 28]
  wf := gather_S128x28_S4880x1_S4880x28_1_0_n_n_0_1_128_wf
def gather_S4880x28_S4880x1_S4880x28_1_0_n_n_0_1_128 : GatherDims S4880x28 S4880x1 S4880x28 where
  offsetDims := [1]
  collapsedSliceDims := [0]
  operandBatchingDims := []
  startIndicesBatchingDims := []
  startIndexMap := [0]
  indexVectorDim := 1
  sliceSizes := ![1, 28]
  wf := gather_S4880x28_S4880x1_S4880x28_1_0_n_n_0_1_128_wf
def dot_S488x4880_S4880x56_S488x56_1_0_0_1_n_n : DotDims S488x4880 S4880x56 S488x56 where
  lhsContracting := [1]
  rhsContracting := [0]
  lhsNonContracting := [0]
  rhsNonContracting := [1]
  lhsBatch := []
  rhsBatch := []
  wf := dot_S488x4880_S4880x56_S488x56_1_0_0_1_n_n_wf
def dot_S488x56_S56x32_S488x32_1_0_0_1_n_n : DotDims S488x56 S56x32 S488x32 where
  lhsContracting := [1]
  rhsContracting := [0]
  lhsNonContracting := [0]
  rhsNonContracting := [1]
  lhsBatch := []
  rhsBatch := []
  wf := dot_S488x56_S56x32_S488x32_1_0_0_1_n_n_wf

abbrev win0_0 : Pipeline.Window sig grid0 :=
  Pipeline.Window.ofSpec (Memref.whole main_arg6) S488x4880.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4880x56.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S488x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S488x56.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S488x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S56x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S488x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S488x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4880 : Shape := ⟨1, ![4880]⟩
abbrev S4880x28 : Shape := ⟨2, ![4880, 28]⟩
abbrev S128x28 : Shape := ⟨2, ![128, 28]⟩
abbrev S4880x4880 : Shape := ⟨2, ![4880, 4880]⟩
abbrev S56x32 : Shape := ⟨2, ![56, 32]⟩
abbrev S32 : Shape := ⟨1, ![32]⟩
abbrev S4880x1 : Shape := ⟨2, ![4880, 1]⟩
abbrev S_ : Shape := ⟨0, ![]⟩
abbrev S4880x56 : Shape := ⟨2, ![4880, 56]⟩
abbrev S4880x32 : Shape := ⟨2, ![4880, 32]⟩
abbrev S1x32 : Shape := ⟨2, ![1, 32]⟩

abbrev nBuf : Space → Nat
  | .hbm => 79
  | .vmem => 0
  | .smem => 0
  | _ => 0

abbrev bufTy : (tb : Table) → Fin (tcTables nBuf tb) → BufTy
  | .hbm, ⟨0, _⟩ => ⟨S4880, .f32⟩
  | .hbm, ⟨1, _⟩ => ⟨S4880, .f32⟩
  | .hbm, ⟨2, _⟩ => ⟨S4880x28, .f32⟩
  | .hbm, ⟨3, _⟩ => ⟨S4880x28, .f32⟩
  | .hbm, ⟨4, _⟩ => ⟨S128x28, .f32⟩
  | .hbm, ⟨5, _⟩ => ⟨S4880, .i32⟩
  | .hbm, ⟨6, _⟩ => ⟨S4880x4880, .f32⟩
  | .hbm, ⟨7, _⟩ => ⟨S56x32, .f32⟩
  | .hbm, ⟨8, _⟩ => ⟨S32, .f32⟩
  | .hbm, ⟨9, _⟩ => ⟨S4880x1, .f32⟩
  | .hbm, ⟨10, _⟩ => ⟨S4880x1, .f32⟩
  | .hbm, ⟨11, _⟩ => ⟨S4880x28, .f32⟩
  | .hbm, ⟨12, _⟩ => ⟨S4880x28, .f32⟩
  | .hbm, ⟨13, _⟩ => ⟨S_, .i32⟩
  | .hbm, ⟨14, _⟩ => ⟨S4880, .i32⟩
  | .hbm, ⟨15, _⟩ => ⟨S4880, .i1⟩
  | .hbm, ⟨16, _⟩ => ⟨S_, .i32⟩
  | .hbm, ⟨17, _⟩ => ⟨S4880, .i32⟩
  | .hbm, ⟨18, _⟩ => ⟨S4880, .i32⟩
  | .hbm, ⟨19, _⟩ => ⟨S4880, .i32⟩
  | .hbm, ⟨20, _⟩ => ⟨S4880x1, .i32⟩
  | .hbm, ⟨21, _⟩ => ⟨S4880x28, .f32⟩
  | .hbm, ⟨22, _⟩ => ⟨S4880x28, .f32⟩
  | .hbm, ⟨23, _⟩ => ⟨S4880x28, .f32⟩
  | .hbm, ⟨24, _⟩ => ⟨S4880x28, .f32⟩
  | .hbm, ⟨25, _⟩ => ⟨S4880x28, .f32⟩
  | .hbm, ⟨26, _⟩ => ⟨S4880x56, .f32⟩
  | .hbm, ⟨27, _⟩ => ⟨S4880x28, .f32⟩
  | .hbm, ⟨28, _⟩ => ⟨S4880x28, .f32⟩
  | .hbm, ⟨29, _⟩ => ⟨S_, .i32⟩
  | .hbm, ⟨30, _⟩ => ⟨S4880, .i32⟩
  | .hbm, ⟨31, _⟩ => ⟨S4880, .i1⟩
  | .hbm, ⟨32, _⟩ => ⟨S_, .i32⟩
  | .hbm, ⟨33, _⟩ => ⟨S4880, .i32⟩
  | .hbm, ⟨34, _⟩ => ⟨S4880, .i32⟩
  | .hbm, ⟨35, _⟩ => ⟨S4880, .i32⟩
  | .hbm, ⟨36, _⟩ => ⟨S4880x1, .i32⟩
  | .hbm, ⟨37, _⟩ => ⟨S4880x28, .f32⟩
  | .hbm, ⟨38, _⟩ => ⟨S4880x28, .f32⟩
  | .hbm, ⟨39, _⟩ => ⟨S4880x28, .f32⟩
  | .hbm, ⟨40, _⟩ => ⟨S4880x56, .f32⟩
  | .hbm, ⟨41, _⟩ => ⟨S4880x56, .f32⟩
  | .hbm, ⟨42, _⟩ => ⟨S4880x56, .f32⟩
  | .hbm, ⟨43, _⟩ => ⟨S4880x56, .f32⟩
  | .hbm, ⟨44, _⟩ => ⟨S4880x56, .f32⟩
  | .hbm, ⟨45, _⟩ => ⟨S4880x56, .f32⟩
  | .hbm, ⟨46, _⟩ => ⟨S4880x56, .f32⟩
  | .hbm, ⟨47, _⟩ => ⟨S4880x56, .f32⟩
  | .hbm, ⟨48, _⟩ => ⟨S4880x56, .f32⟩
  | .hbm, ⟨49, _⟩ => ⟨S4880x56, .f32⟩
  | .hbm, ⟨50, _⟩ => ⟨S4880x56, .f32⟩
  | .hbm, ⟨51, _⟩ => ⟨S4880x56, .f32⟩
  | .hbm, ⟨52, _⟩ => ⟨S4880x56, .f32⟩
  | .hbm, ⟨53, _⟩ => ⟨S4880x32, .f32⟩
  | .hbm, ⟨54, _⟩ => ⟨S1x32, .f32⟩
  | .hbm, ⟨55, _⟩ => ⟨S4880x32, .f32⟩
  | .hbm, ⟨56, _⟩ => ⟨S4880x32, .f32⟩
  | .hbm, ⟨57, _⟩ => ⟨S_, .f32⟩
  | .hbm, ⟨58, _⟩ => ⟨S_, .f32⟩
  | .hbm, ⟨59, _⟩ => ⟨S4880x32, .f32⟩
  | .hbm, ⟨60, _⟩ => ⟨S4880x32, .i1⟩
  | .hbm, ⟨61, _⟩ => ⟨S_, .f32⟩
  | .hbm, ⟨62, _⟩ => ⟨S4880x32, .f32⟩
  | .hbm, ⟨63, _⟩ => ⟨S4880x32, .f32⟩
  | .hbm, ⟨64, _⟩ => ⟨S4880x32, .f32⟩
  | .hbm, ⟨65, _⟩ => ⟨S4880x56, .f32⟩
  | .hbm, ⟨66, _⟩ => ⟨S4880x56, .f32⟩
  | .hbm, ⟨67, _⟩ => ⟨S4880x32, .f32⟩
  | .hbm, ⟨68, _⟩ => ⟨S1x32, .f32⟩
  | .hbm, ⟨69, _⟩ => ⟨S4880x32, .f32⟩
  | .hbm, ⟨70, _⟩ => ⟨S4880x32, .f32⟩
  | .hbm, ⟨71, _⟩ => ⟨S_, .f32⟩
  | .hbm, ⟨72, _⟩ => ⟨S_, .f32⟩
  | .hbm, ⟨73, _⟩ => ⟨S4880x32, .f32⟩
  | .hbm, ⟨74, _⟩ => ⟨S4880x32, .i1⟩
  | .hbm, ⟨75, _⟩ => ⟨S_, .f32⟩
  | .hbm, ⟨76, _⟩ => ⟨S4880x32, .f32⟩
  | .hbm, ⟨77, _⟩ => ⟨S4880x32, .f32⟩
  | .hbm, ⟨78, _⟩ => ⟨S4880x32, .f32⟩
  | _, _ => ⟨S4880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  bcast_S4880_S4880x1_0 : S4880.BroadcastsInDim S4880x1 (![0] : Fin 1 → Fin S4880x1.rank)
  bcast_S4880x1_S4880x28_0_1 : S4880x1.BroadcastsInDim S4880x28 (![0, 1] : Fin 2 → Fin S4880x28.rank)
  bcast_S_S4880 : S_.BroadcastsInDim S4880 (![] : Fin 0 → Fin S4880.rank)
  concatenates_S4880x28_S4880x28_S4880x56_d1 : Shape.Concatenates [S4880x28, S4880x28] S4880x56 1
  bcast_S4880x1_S4880x56_0_1 : S4880x1.BroadcastsInDim S4880x56 (![0, 1] : Fin 2 → Fin S4880x56.rank)
  bcast_S32_S1x32_1 : S32.BroadcastsInDim S1x32 (![1] : Fin 1 → Fin S1x32.rank)
  bcast_S1x32_S4880x32_0_1 : S1x32.BroadcastsInDim S4880x32 (![0, 1] : Fin 2 → Fin S4880x32.rank)
  bcast_S_S4880x32 : S_.BroadcastsInDim S4880x32 (![] : Fin 0 → Fin S4880x32.rank)
  gather_S128x28_S4880x1_S4880x28_1_0_n_n_0_1_128_wf : GatherDims.WF S128x28 S4880x1 S4880x28 [1] [0] [] [0] [] 1 ![1, 28]
  gather_S4880x28_S4880x1_S4880x28_1_0_n_n_0_1_128_wf : GatherDims.WF S4880x28 S4880x1 S4880x28 [1] [0] [] [0] [] 1 ![1, 28]
  dot_S4880x4880_S4880x56_S4880x56_1_0_0_1_n_n_wf : DotDims.WF S4880x4880 S4880x56 S4880x56 [1] [0] [0] [1] [] []
  dot_S4880x56_S56x32_S4880x32_1_0_0_1_n_n_wf : DotDims.WF S4880x56 S56x32 S4880x32 [1] [0] [0] [1] [] []

variable [Facts₀]

def gather_S128x28_S4880x1_S4880x28_1_0_n_n_0_1_128 : GatherDims S128x28 S4880x1 S4880x28 where
  offsetDims := [1]
  collapsedSliceDims := [0]
  operandBatchingDims := []
  startIndicesBatchingDims := []
  startIndexMap := [0]
  indexVectorDim := 1
  sliceSizes := ![1, 28]
  wf := gather_S128x28_S4880x1_S4880x28_1_0_n_n_0_1_128_wf
def gather_S4880x28_S4880x1_S4880x28_1_0_n_n_0_1_128 : GatherDims S4880x28 S4880x1 S4880x28 where
  offsetDims := [1]
  collapsedSliceDims := [0]
  operandBatchingDims := []
  startIndicesBatchingDims := []
  startIndexMap := [0]
  indexVectorDim := 1
  sliceSizes := ![1, 28]
  wf := gather_S4880x28_S4880x1_S4880x28_1_0_n_n_0_1_128_wf
def dot_S4880x4880_S4880x56_S4880x56_1_0_0_1_n_n : DotDims S4880x4880 S4880x56 S4880x56 where
  lhsContracting := [1]
  rhsContracting := [0]
  lhsNonContracting := [0]
  rhsNonContracting := [1]
  lhsBatch := []
  rhsBatch := []
  wf := dot_S4880x4880_S4880x56_S4880x56_1_0_0_1_n_n_wf
def dot_S4880x56_S56x32_S4880x32_1_0_0_1_n_n : DotDims S4880x56 S56x32 S4880x32 where
  lhsContracting := [1]
  rhsContracting := [0]
  lhsNonContracting := [0]
  rhsNonContracting := [1]
  lhsBatch := []
  rhsBatch := []
  wf := dot_S4880x56_S56x32_S4880x32_1_0_0_1_n_n_wf

class Facts : Prop extends Facts₀ where

variable [Facts]
-- ==== Proof.LayerSpec.lean ====
/-
  The mathematics of one message-passing layer, stated over plain coordinate-indexed families of extended reals.

  A node `i` has its own feature row `own i` (56 entries) and a 0/1-valued mask `mask i`; the adjacency row
  `adj i` weights the rows of every node `k`. The FUSED pre-activation adds to the own row the mask times ONE
  aggregated row, `∑ k, adj i k * xs k l`, where `xs` is the entrywise sum of the two feature tables. The SPLIT
  pre-activation aggregates the two tables separately: `(own i l + mask i * ∑ k, adj i k * own k l) + mask i * ∑ k,
  adj i k * other k l`. Where every entry involved is a real number the two agree (distributivity of the product
  over the sum, entry by entry and then over the finite sum); on the extended reals in general they do not, which is
  why the hypotheses ask that the entries be neither infinity.

  After the pre-activation both sides apply the same dense layer (a 56-term sum against a column of `W`, plus a
  bias) and a leaky rectifier with slope `c`: one side tests `0 < x`, the other `0 ≤ x`; the two rectifiers agree
  because at `x = 0` the slope branch gives `c * 0 = 0`.
-/
import Idealize.ShloMosaic.PureOps.Ideal

noncomputable section

open scoped BigOperators

namespace Cert.Layer

open Idealize.ShloMosaic

/-- An extended real that is a real number: neither infinity. -/
def IsReal (x : EReal) : Prop := x ≠ ⊤ ∧ x ≠ ⊥

theorem IsReal.coe (r : ℝ) : IsReal (r : EReal) := ⟨EReal.coe_ne_top r, EReal.coe_ne_bot r⟩

theorem IsReal.exists {x : EReal} (h : IsReal x) : ∃ r : ℝ, x = (r : EReal) := by
  induction x using EReal.rec with
  | bot => exact absurd rfl h.2
  | coe r => exact ⟨r, rfl⟩
  | top => exact absurd rfl h.1

theorem IsReal.mul {x y : EReal} (hx : IsReal x) (hy : IsReal y) : IsReal (x * y) := by
  obtain ⟨a, rfl⟩ := hx.exists
  obtain ⟨b, rfl⟩ := hy.exists
  rw [← EReal.coe_mul]; exact IsReal.coe _

theorem IsReal.add {x y : EReal} (hx : IsReal x) (hy : IsReal y) : IsReal (x + y) := by
  obtain ⟨a, rfl⟩ := hx.exists
  obtain ⟨b, rfl⟩ := hy.exists
  rw [← EReal.coe_add]; exact IsReal.coe _

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Distributivity through a weighted finite sum, on real-valued entries: aggregating the entrywise sum of two
    families is aggregating each and adding, also after a common real factor `c`. -/
theorem aggregate_split {ι : Type*} [Fintype ι] (a c : EReal) (g u w x : ι → EReal) (hc : IsReal c)
    (hg : ∀ k, IsReal (g k)) (hu : ∀ k, IsReal (u k)) (hw : ∀ k, IsReal (w k)) (hx : ∀ k, x k = u k + w k) :
    (a + c * ∑ k, g k * u k) + c * ∑ k, g k * w k = a + c * ∑ k, g k * x k := by
  obtain ⟨c', rfl⟩ := hc.exists
  choose g' hg' using fun k => (hg k).exists
  choose u' hu' using fun k => (hu k).exists
  choose w' hw' using fun k => (hw k).exists
  have e1 : ∑ k, g k * u k = ((∑ k, g' k * u' k : ℝ) : EReal) := by
    rw [coe_sum]; exact Finset.sum_congr rfl fun k _ => by rw [hg' k, hu' k, EReal.coe_mul]
  have e2 : ∑ k, g k * w k = ((∑ k, g' k * w' k : ℝ) : EReal) := by
    rw [coe_sum]; exact Finset.sum_congr rfl fun k _ => by rw [hg' k, hw' k, EReal.coe_mul]
  have e3 : ∑ k, g k * x k = ((∑ k, g' k * (u' k + w' k) : ℝ) : EReal) := by
    rw [coe_sum]; exact Finset.sum_congr rfl fun k _ => by rw [hx k, hg' k, hu' k, hw' k, ← EReal.coe_add, EReal.coe_mul]
  rw [e1, e2, e3, add_assoc, ← EReal.coe_mul, ← EReal.coe_mul, ← EReal.coe_mul, ← EReal.coe_add]
  congr 2
  rw [← mul_add, ← Finset.sum_add_distrib]
  exact congrArg (c' * ·) (Finset.sum_congr rfl fun k _ => (mul_add _ _ _).symm)

/-! ## The layer -/

/-- The rectifier's slope, the float literal `0.00999999977` as the real its bits denote. -/
abbrev slope : EReal := Ideal.ofBits .f32 0x3C23D70A#32

/-- The leaky rectifier testing `0 < x`. -/
def leakyStrict (x : EReal) : EReal :=
  Scalar.select (Ideal.cmp .ogt x (Ideal.ofBits .f32 0x00000000#32)) x (slope * x)

/-- The leaky rectifier testing `0 ≤ x`. -/
def leakyWeak (x : EReal) : EReal :=
  Scalar.select (Ideal.cmp .oge x (Ideal.ofBits .f32 0x00000000#32)) x (slope * x)

theorem ofBits_zero : Ideal.ofBits .f32 0x00000000#32 = 0 := by simp [Ideal.ofBits, Ideal.ieee]

/-- The two rectifiers are one function: they differ only in the branch taken at `0`, where the slope branch is `0`. -/
theorem leakyWeak_eq_leakyStrict (x : EReal) : leakyWeak x = leakyStrict x := by
  unfold leakyWeak leakyStrict Ideal.cmp Scalar.select
  rw [ofBits_zero]
  by_cases h : (0 : EReal) < x
  · simp [h, h.le]
  · by_cases h0 : x = 0
    · subst h0; simp
    · have hle : ¬ (0 : EReal) ≤ x := fun hle => h (lt_of_le_of_ne hle (Ne.symm h0))
      simp [h, hle]

/-- The dense layer: row `h` against column `j` of `W`, plus the bias. -/
def dense (h : Fin 56 → EReal) (W : Fin 56 → Fin 32 → EReal) (b : Fin 32 → EReal) (j : Fin 32) : EReal :=
  (∑ l : Fin 56, h l * W l j) + b j

/-- The fused pre-activation of node `i`: its own row plus its mask times the aggregate of the summed table. -/
def fusedPre (own : Fin 4880 → Fin 56 → EReal) (mask : Fin 4880 → EReal) (adj : Fin 4880 → Fin 4880 → EReal)
    (xs : Fin 4880 → Fin 56 → EReal) (i : Fin 4880) (l : Fin 56) : EReal :=
  own i l + mask i * ∑ k : Fin 4880, adj i k * xs k l

/-- The split pre-activation of node `i`: the two tables aggregated separately, each scaled by the mask. -/
def splitPre (own other : Fin 4880 → Fin 56 → EReal) (mask : Fin 4880 → EReal) (adj : Fin 4880 → Fin 4880 → EReal)
    (i : Fin 4880) (l : Fin 56) : EReal :=
  (own i l + mask i * ∑ k : Fin 4880, adj i k * own k l) + mask i * ∑ k : Fin 4880, adj i k * other k l

/-- The layer's output from the fused pre-activation, rectified with the strict test. -/
def fusedOut (own : Fin 4880 → Fin 56 → EReal) (mask : Fin 4880 → EReal) (adj : Fin 4880 → Fin 4880 → EReal)
    (xs : Fin 4880 → Fin 56 → EReal) (W : Fin 56 → Fin 32 → EReal) (b : Fin 32 → EReal) (i : Fin 4880) (j : Fin 32) : EReal :=
  leakyStrict (dense (fusedPre own mask adj xs i) W b j)

/-- The layer's output from the split pre-activation, rectified with the weak test. -/
def splitOut (own other : Fin 4880 → Fin 56 → EReal) (mask : Fin 4880 → EReal) (adj : Fin 4880 → Fin 4880 → EReal)
    (W : Fin 56 → Fin 32 → EReal) (b : Fin 32 → EReal) (i : Fin 4880) (j : Fin 32) : EReal :=
  leakyWeak (dense (splitPre own other mask adj i) W b j)

/-- On real-valued tables, mask and adjacency the split layer is the fused layer of the summed table. -/
theorem splitOut_eq_fusedOut (own other : Fin 4880 → Fin 56 → EReal) (mask : Fin 4880 → EReal)
    (adj : Fin 4880 → Fin 4880 → EReal) (xs : Fin 4880 → Fin 56 → EReal) (W : Fin 56 → Fin 32 → EReal) (b : Fin 32 → EReal)
    (hown : ∀ k l, IsReal (own k l)) (hother : ∀ k l, IsReal (other k l)) (hmask : ∀ i, IsReal (mask i))
    (hadj : ∀ i k, IsReal (adj i k)) (hxs : ∀ k l, xs k l = own k l + other k l) (i : Fin 4880) (j : Fin 32) :
    splitOut own other mask adj W b i j = fusedOut own mask adj xs W b i j := by
  unfold splitOut fusedOut
  rw [leakyWeak_eq_leakyStrict]
  refine congrArg leakyStrict ?_
  unfold dense
  refine congrArg (· + b j) (Finset.sum_congr rfl fun l _ => congrArg (· * W l j) ?_)
  unfold splitPre fusedPre
  exact aggregate_split (own i l) (mask i) (adj i) (fun k => own k l) (fun k => other k l) (fun k => xs k l)
    (hmask i) (hadj i) (fun k => hown k l) (fun k => hother k l) (fun k => hxs k l)

end Cert.Layer

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.BodyValue.lean ====
/-
  The kernel body's two stored values, read at one entry `(p, j)` of the 488-row block.

  The body multiplies the block of adjacency rows by the whole summed feature table (one product, inner extent 4880),
  scales row `p` of that product by the row's mask entry (column 0 of the mask pair for the first output, column 1
  for the second), adds the row's own features, multiplies by the weight matrix (inner extent 56), adds the bias row
  and applies the leaky rectifier with the strict test. Read at `(p, j)` this is `Cert.Layer.leakyStrict` of the
  dense layer applied to the fused pre-activation of row `p`, over the loaded blocks.
-/
import proofs.«103284_j6811818131656_2_alg».proof.Proof.Gen.KernelIdeal.Skeleton
import proofs.«103284_j6811818131656_2_alg».proof.Proof.LayerSpec
import proofs.«103284_j6811818131656_2_alg».proof.Proof.LibMatmul
import proofs.«103284_j6811818131656_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The block product's dimension numbers are the plain rows-by-columns ones. -/
theorem dotAgg_eq : dot_S488x4880_S4880x56_S488x56_1_0_0_1_n_n = DotDims.plain 488 4880 56 := rfl

/-- So are the dense layer's. -/
theorem dotDense_eq : dot_S488x56_S56x32_S488x32_1_0_0_1_n_n = DotDims.plain 488 56 32 := rfl

/-- The aggregated block: entry `(p, l)` is the sum over all 4880 nodes `k` of the adjacency entry `(p, k)` times the
    summed table's entry `(k, l)`. -/
theorem aggregate_apply (a : FVec Ideal S488x4880 .f32) (x : FVec Ideal S4880x56 .bf16) (p : Fin 488) (l : Fin 56) :
    k0_pay2 a x (ix2 p l) = ∑ k : Fin 4880, a (ix2 p k) * x (ix2 k l) := by
  unfold k0_pay2
  show FloatOps.matmul dot_S488x4880_S4880x56_S488x56_1_0_0_1_n_n none
      (truncf .bf16 a bitsLt_bf16_f32) (shapeCast S4880x56 x shapeCasts_S4880x56_S4880x56)
      (constant ⟨2, ![488, 56]⟩ .f32 0x00000000#32) (ix2 p l) = _
  rw [dotAgg_eq, shapeCast_self]
  exact matmul_plain_zero_apply 488 4880 56 none _ _ p l

/-- The pre-activation block for a mask column `q` of the pair: own features plus the mask entry times the aggregate. -/
theorem dense_apply (h : FVec Ideal S488x56 .bf16) (w : FVec Ideal S56x32 .f32) (bias : FVec Ideal S1x32 .f32) (p : Fin 488) (j : Fin 32) :
    addf (matmul dot_S488x56_S56x32_S488x32_1_0_0_1_n_n none h (k0_pay4 w) (constant S488x32 .f32 0x00000000#32))
        (broadcastTo S488x32 (k0_pay5 bias) broadcasts_S1x32_S488x32) (ix2 p j)
      = Cert.Layer.dense (fun l => h (ix2 p l)) (fun l j => w (ix2 l j)) (fun j => bias (ix2 (0 : Fin 1) j)) j := by
  rw [addf_apply]
  unfold Cert.Layer.dense k0_pay4 k0_pay5
  refine congrArg₂ (· + ·) ?_ ?_
  · show FloatOps.matmul dot_S488x56_S56x32_S488x32_1_0_0_1_n_n none h (truncf .bf16 w bitsLt_bf16_f32)
        (constant ⟨2, ![488, 32]⟩ .f32 0x00000000#32) (ix2 p j) = _
    rw [dotDense_eq]
    exact matmul_plain_zero_apply 488 56 32 none _ _ p j
  · rw [shapeCast_self]
    exact broadcastTo_1b_ab_apply bias broadcasts_S1x32_S488x32 p j

/-- The fused pre-activation of block row `p` with the mask read from column 0 of the mask pair. -/
theorem pre0_apply (a : FVec Ideal S488x4880 .f32) (x : FVec Ideal S4880x56 .bf16) (own : FVec Ideal S488x56 .f32)
    (codes : FVec Ideal S488x2 .f32) (p : Fin 488) (l : Fin 56) :
    addf (shapeCast S488x56 own shapeCasts_S488x56_S488x56)
        (mulf (broadcastTo S488x56 (extractStridedSlice S488x1 ![0, 0] (k0_pay3 codes) slices_S488x2_o0_0_S488x1) broadcasts_S488x1_S488x56)
          (k0_pay2 a x)) (ix2 p l)
      = own (ix2 p l) + codes (ix2 p (0 : Fin 2)) * ∑ k : Fin 4880, a (ix2 p k) * x (ix2 k l) := by
  rw [addf_apply, mulf_apply, shapeCast_self, aggregate_apply]
  refine congrArg (own (ix2 p l) + · * _) ?_
  refine (broadcastTo_a1_ab_apply _ broadcasts_S488x1_S488x56 p l).trans ?_
  unfold k0_pay3
  rw [shapeCast_self]
  exact slice2_axis1_apply 0 codes slices_S488x2_o0_0_S488x1 p (0 : Fin 1) (0 : Fin 2) rfl

/-- The same with the mask read from column 1 of the mask pair. -/
theorem pre1_apply (a : FVec Ideal S488x4880 .f32) (x : FVec Ideal S4880x56 .bf16) (own : FVec Ideal S488x56 .f32)
    (codes : FVec Ideal S488x2 .f32) (p : Fin 488) (l : Fin 56) :
    addf (shapeCast S488x56 own shapeCasts_S488x56_S488x56)
        (mulf (broadcastTo S488x56 (extractStridedSlice S488x1 ![0, 1] (k0_pay3 codes) slices_S488x2_o0_1_S488x1) broadcasts_S488x1_S488x56)
          (k0_pay2 a x)) (ix2 p l)
      = own (ix2 p l) + codes (ix2 p (1 : Fin 2)) * ∑ k : Fin 4880, a (ix2 p k) * x (ix2 k l) := by
  rw [addf_apply, mulf_apply, shapeCast_self, aggregate_apply]
  refine congrArg (own (ix2 p l) + · * _) ?_
  refine (broadcastTo_a1_ab_apply _ broadcasts_S488x1_S488x56 p l).trans ?_
  unfold k0_pay3
  rw [shapeCast_self]
  exact slice2_axis1_apply 1 codes slices_S488x2_o0_1_S488x1 p (0 : Fin 1) (1 : Fin 2) rfl

/-- THE FIRST OUTPUT's stored block at `(p, j)`: the rectified dense layer of row `p`'s fused pre-activation, the
    mask from column 0. -/
theorem center_apply (a : FVec Ideal S488x4880 .f32) (x : FVec Ideal S4880x56 .bf16) (own : FVec Ideal S488x56 .f32)
    (codes : FVec Ideal S488x2 .f32) (w : FVec Ideal S56x32 .f32) (bias : FVec Ideal S1x32 .f32) (p : Fin 488) (j : Fin 32) :
    k0_pay7 (F := Ideal) a x own codes w bias (ix2 p j)
      = Cert.Layer.leakyStrict (Cert.Layer.dense
          (fun l => own (ix2 p l) + codes (ix2 p (0 : Fin 2)) * ∑ k : Fin 4880, a (ix2 p k) * x (ix2 k l))
          (fun l j => w (ix2 l j)) (fun j => bias (ix2 (0 : Fin 1) j)) j) := by
  unfold k0_pay7
  show Cert.Layer.leakyStrict (addf (matmul dot_S488x56_S56x32_S488x32_1_0_0_1_n_n none
      (truncf .bf16 (addf (shapeCast S488x56 own shapeCasts_S488x56_S488x56)
        (mulf (broadcastTo S488x56 (extractStridedSlice S488x1 ![0, 0] (k0_pay3 codes) slices_S488x2_o0_0_S488x1) broadcasts_S488x1_S488x56)
          (k0_pay2 a x))) bitsLt_bf16_f32)
      (k0_pay4 w) (constant S488x32 .f32 0x00000000#32))
      (broadcastTo S488x32 (k0_pay5 bias) broadcasts_S1x32_S488x32) (ix2 p j)) = _
  rw [dense_apply]
  refine congrArg (fun h => Cert.Layer.leakyStrict (Cert.Layer.dense h _ _ j)) (funext fun l => ?_)
  rw [truncf_apply]
  exact pre0_apply a x own codes p l

/-- THE SECOND OUTPUT's stored block at `(p, j)`: the same layer over the second feature table's rows, the mask from
    column 1. -/
theorem neigh_apply (a : FVec Ideal S488x4880 .f32) (x : FVec Ideal S4880x56 .bf16) (own : FVec Ideal S488x56 .f32)
    (codes : FVec Ideal S488x2 .f32) (w : FVec Ideal S56x32 .f32) (bias : FVec Ideal S1x32 .f32) (p : Fin 488) (j : Fin 32) :
    k0_pay1 (F := Ideal) (k0_pay6 a x own codes w bias) (ix2 p j)
      = Cert.Layer.leakyStrict (Cert.Layer.dense
          (fun l => own (ix2 p l) + codes (ix2 p (1 : Fin 2)) * ∑ k : Fin 4880, a (ix2 p k) * x (ix2 k l))
          (fun l j => w (ix2 l j)) (fun j => bias (ix2 (0 : Fin 1) j)) j) := by
  unfold k0_pay1 k0_pay6
  show Cert.Layer.leakyStrict (addf (matmul dot_S488x56_S56x32_S488x32_1_0_0_1_n_n none
      (truncf .bf16 (addf (shapeCast S488x56 own shapeCasts_S488x56_S488x56)
        (mulf (broadcastTo S488x56 (extractStridedSlice S488x1 ![0, 1] (k0_pay3 codes) slices_S488x2_o0_1_S488x1) broadcasts_S488x1_S488x56)
          (k0_pay2 a x))) bitsLt_bf16_f32)
      (k0_pay4 w) (constant S488x32 .f32 0x00000000#32))
      (broadcastTo S488x32 (k0_pay5 bias) broadcasts_S1x32_S488x32) (ix2 p j)) = _
  rw [dense_apply]
  refine congrArg (fun h => Cert.Layer.leakyStrict (Cert.Layer.dense h _ _ j)) (funext fun l => ?_)
  rw [truncf_apply]
  exact pre1_apply a x own codes p l

end Cert.KernelIdeal.Body

end
-- ==== Proof.RegionValue.lean ====
/-
  From blocks to arrays. The region runs the body at ten grid points; point `t` sees rows `488 t … 488 t + 487` of the
  adjacency matrix, of the two feature tables and of the mask pair, and the whole summed table, weight matrix and bias
  row; it writes rows `488 t … 488 t + 487` of each output. Reading each input block back as rows of its array, what
  point `t` writes is block `t` of ONE whole-array function — the fused layer of `Cert.Layer` over the arrays as the
  region finds them — and the ten blocks cover the 4880 rows, so each output array ends holding that function.
-/
import proofs.«103284_j6811818131656_2_alg».proof.Proof.Gen.KernelIdeal.Frame
import proofs.«103284_j6811818131656_2_alg».proof.Proof.Gen.KernelIdeal.Value
import proofs.«103284_j6811818131656_2_alg».proof.Proof.BodyValue
import Idealize.ShloMosaic.Lib.Pipeline.Value
import Idealize.ShloMosaic.Lib.ValueIdx

noncomputable section

open scoped BigOperators

namespace Cert.KernelIdeal.Region

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- The adjacency matrix. -/
def arrAdj (c : Dev nD) : FVec Ideal S4880x4880 .f32 := V m c main_arg6
/-- The entrywise sum of the two feature tables. -/
def arrSum (c : Dev nD) : FVec Ideal S4880x56 .bf16 := V m c main_v29
/-- The first feature table. -/
def arrCenter (c : Dev nD) : FVec Ideal S4880x56 .f32 := V m c main_v15
/-- The second feature table. -/
def arrNeigh (c : Dev nD) : FVec Ideal S4880x56 .f32 := V m c main_v27
/-- The two masks side by side, one column each. -/
def arrMask (c : Dev nD) : FVec Ideal S4880x2 .f32 := V m c main_v30
/-- The weight matrix. -/
def arrW (c : Dev nD) : FVec Ideal S56x32 .f32 := V m c main_arg7
/-- The bias as one row. -/
def arrBias (c : Dev nD) : FVec Ideal S1x32 .f32 := V m c main_v31

/-- The printed index maps over the ten grid points: the row-tiled windows sit at block row `t`, the whole-array
    windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Each input block as rows of its array -/

/-- Row `p` of point `t`'s adjacency block is row `488 t + p` of the matrix. -/
theorem blkAdj_apply (c : Dev nD) (t : Fin cfg0.N) (p : Fin 488) (q : Fin 4880) (i : Fin 4880) (hi : i.val = 488 * t.val + p.val) :
    (iblk m c 0 t : FVec Ideal S488x4880 .f32) (ix2 p q) = arrAdj m c (ix2 i q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_arg6 _ = V m c main_arg6 _
  refine congrArg (V m c main_arg6) ?_
  funext a
  apply Fin.ext
  match a with
  | ⟨0, _⟩ => show win0_0.index t (0 : Fin 2) * 488 + 1 * p.val = i.val; rw [e0_0, hi]; omega
  | ⟨1, _⟩ => show win0_0.index t (1 : Fin 2) * 4880 + 1 * q.val = q.val; rw [e0_1]; omega

/-- Every point sees the whole summed table. -/
theorem blkSum_apply (c : Dev nD) (t : Fin cfg0.N) (p : Fin 4880) (q : Fin 56) :
    (iblk m c 1 t : FVec Ideal S4880x56 .bf16) (ix2 p q) = arrSum m c (ix2 p q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_v29 _ = V m c main_v29 _
  refine congrArg (V m c main_v29) ?_
  funext a
  apply Fin.ext
  match a with
  | ⟨0, _⟩ => show win0_1.index t (0 : Fin 2) * 4880 + 1 * p.val = p.val; rw [e1_0]; omega
  | ⟨1, _⟩ => show win0_1.index t (1 : Fin 2) * 56 + 1 * q.val = q.val; rw [e1_1]; omega

/-- Row `p` of point `t`'s block of the first feature table is row `488 t + p` of the table. -/
theorem blkCenter_apply (c : Dev nD) (t : Fin cfg0.N) (p : Fin 488) (q : Fin 56) (i : Fin 4880) (hi : i.val = 488 * t.val + p.val) :
    (iblk m c 2 t : FVec Ideal S488x56 .f32) (ix2 p q) = arrCenter m c (ix2 i q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_v15 _ = V m c main_v15 _
  refine congrArg (V m c main_v15) ?_
  funext a
  apply Fin.ext
  match a with
  | ⟨0, _⟩ => show win0_2.index t (0 : Fin 2) * 488 + 1 * p.val = i.val; rw [e2_0, hi]; omega
  | ⟨1, _⟩ => show win0_2.index t (1 : Fin 2) * 56 + 1 * q.val = q.val; rw [e2_1]; omega

/-- Row `p` of point `t`'s block of the second feature table is row `488 t + p` of the table. -/
theorem blkNeigh_apply (c : Dev nD) (t : Fin cfg0.N) (p : Fin 488) (q : Fin 56) (i : Fin 4880) (hi : i.val = 488 * t.val + p.val) :
    (iblk m c 3 t : FVec Ideal S488x56 .f32) (ix2 p q) = arrNeigh m c (ix2 i q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_v27 _ = V m c main_v27 _
  refine congrArg (V m c main_v27) ?_
  funext a
  apply Fin.ext
  match a with
  | ⟨0, _⟩ => show win0_3.index t (0 : Fin 2) * 488 + 1 * p.val = i.val; rw [e3_0, hi]; omega
  | ⟨1, _⟩ => show win0_3.index t (1 : Fin 2) * 56 + 1 * q.val = q.val; rw [e3_1]; omega

/-- Row `p` of point `t`'s block of the mask pair is row `488 t + p` of the pair. -/
theorem blkMask_apply (c : Dev nD) (t : Fin cfg0.N) (p : Fin 488) (q : Fin 2) (i : Fin 4880) (hi : i.val = 488 * t.val + p.val) :
    (iblk m c 4 t : FVec Ideal S488x2 .f32) (ix2 p q) = arrMask m c (ix2 i q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_v30 _ = V m c main_v30 _
  refine congrArg (V m c main_v30) ?_
  funext a
  apply Fin.ext
  match a with
  | ⟨0, _⟩ => show win0_4.index t (0 : Fin 2) * 488 + 1 * p.val = i.val; rw [e4_0, hi]; omega
  | ⟨1, _⟩ => show win0_4.index t (1 : Fin 2) * 2 + 1 * q.val = q.val; rw [e4_1]; omega

/-- Every point sees the whole weight matrix. -/
theorem blkW_apply (c : Dev nD) (t : Fin cfg0.N) (p : Fin 56) (q : Fin 32) :
    (iblk m c 5 t : FVec Ideal S56x32 .f32) (ix2 p q) = arrW m c (ix2 p q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_arg7 _ = V m c main_arg7 _
  refine congrArg (V m c main_arg7) ?_
  funext a
  apply Fin.ext
  match a with
  | ⟨0, _⟩ => show win0_5.index t (0 : Fin 2) * 56 + 1 * p.val = p.val; rw [e5_0]; omega
  | ⟨1, _⟩ => show win0_5.index t (1 : Fin 2) * 32 + 1 * q.val = q.val; rw [e5_1]; omega

/-- Every point sees the bias row. -/
theorem blkBias_apply (c : Dev nD) (t : Fin cfg0.N) (p : Fin 1) (q : Fin 32) :
    (iblk m c 6 t : FVec Ideal S1x32 .f32) (ix2 p q) = arrBias m c (ix2 p q) := by
  obtain ⟨e0_0, e0_1, e1_0, e1_1, e2_0, e2_1, e3_0, e3_1, e4_0, e4_1, e5_0, e5_1, e6_0, e6_1, e7_0, e7_1, e8_0, e8_1⟩ := idx_facts t
  unfold iblk
  rw [View.read_apply]
  show V m c main_v31 _ = V m c main_v31 _
  refine congrArg (V m c main_v31) ?_
  funext a
  apply Fin.ext
  match a with
  | ⟨0, _⟩ => show win0_6.index t (0 : Fin 2) * 1 + 1 * p.val = p.val; rw [e6_0]; omega
  | ⟨1, _⟩ => show win0_6.index t (1 : Fin 2) * 32 + 1 * q.val = q.val; rw [e6_1]; omega

/-! ## The two outputs as whole-array functions -/

/-- The first output as ONE function of the arrays the region finds: at `(i, j)` the fused layer of node `i` with the
    first feature table in the own role and the mask from column 0 of the pair. -/
def centerOut (c : Dev nD) : FVec Ideal S4880x32 .f32 := fun idx =>
  Cert.Layer.fusedOut (fun k l => arrCenter m c (ix2 k l)) (fun k => arrMask m c (ix2 k (0 : Fin 2)))
    (fun i k => arrAdj m c (ix2 i k)) (fun k l => arrSum m c (ix2 k l)) (fun l j => arrW m c (ix2 l j))
    (fun j => arrBias m c (ix2 (0 : Fin 1) j)) ⟨(idx 0).val, idx2_lt0 idx⟩ ⟨(idx 1).val, idx2_lt1 idx⟩

/-- The second output: the same layer with the second feature table in the own role and the mask from column 1. -/
def neighOut (c : Dev nD) : FVec Ideal S4880x32 .f32 := fun idx =>
  Cert.Layer.fusedOut (fun k l => arrNeigh m c (ix2 k l)) (fun k => arrMask m c (ix2 k (1 : Fin 2)))
    (fun i k => arrAdj m c (ix2 i k)) (fun k l => arrSum m c (ix2 k l)) (fun l j => arrW m c (ix2 l j))
    (fun j => arrBias m c (ix2 (0 : Fin 1) j)) ⟨(idx 0).val, idx2_lt0 idx⟩ ⟨(idx 1).val, idx2_lt1 idx⟩

theorem centerOut_apply (c : Dev nD) (i : Fin 4880) (j : Fin 32) :
    centerOut m c (ix2 i j) = Cert.Layer.fusedOut (fun k l => arrCenter m c (ix2 k l)) (fun k => arrMask m c (ix2 k (0 : Fin 2)))
      (fun i k => arrAdj m c (ix2 i k)) (fun k l => arrSum m c (ix2 k l)) (fun l j => arrW m c (ix2 l j))
      (fun j => arrBias m c (ix2 (0 : Fin 1) j)) i j := rfl

theorem neighOut_apply (c : Dev nD) (i : Fin 4880) (j : Fin 32) :
    neighOut m c (ix2 i j) = Cert.Layer.fusedOut (fun k l => arrNeigh m c (ix2 k l)) (fun k => arrMask m c (ix2 k (1 : Fin 2)))
      (fun i k => arrAdj m c (ix2 i k)) (fun k l => arrSum m c (ix2 k l)) (fun l j => arrW m c (ix2 l j))
      (fun j => arrBias m c (ix2 (0 : Fin 1) j)) i j := rfl

/-! ## What each point writes back is its block of the whole-array function -/

/-- Row `p` of point `t`'s block of an array of the first output's shape is row `488 t + p` of the array. -/
theorem blkOut7_apply (G : FVec Ideal S4880x32 .f32) (t : Fin cfg0.N) (p : Fin 488) (j : Fin 32) (i : Fin 4880) (hi : i.val = 488 * t.val + p.val) :
    (((cfg0.win 7).blk t).view.read (Elt Ideal) G : FVec Ideal S488x32 .f32) (ix2 p j) = G (ix2 i j) := by
  obtain ⟨e0_0, e0_1, e1_0, e1_1, e2_0, e2_1, e3_0, e3_1, e4_0, e4_1, e5_0, e5_1, e6_0, e6_1, e7_0, e7_1, e8_0, e8_1⟩ := idx_facts t
  rw [View.read_apply]
  show G _ = G _
  refine congrArg G ?_
  funext a
  apply Fin.ext
  match a with
  | ⟨0, _⟩ => show win0_7.index t (0 : Fin 2) * 488 + 1 * p.val = i.val; rw [e7_0, hi]; omega
  | ⟨1, _⟩ => show win0_7.index t (1 : Fin 2) * 32 + 1 * j.val = j.val; rw [e7_1]; omega

/-- Row `p` of point `t`'s block of an array of the second output's shape is row `488 t + p` of the array. -/
theorem blkOut8_apply (G : FVec Ideal S4880x32 .f32) (t : Fin cfg0.N) (p : Fin 488) (j : Fin 32) (i : Fin 4880) (hi : i.val = 488 * t.val + p.val) :
    (((cfg0.win 8).blk t).view.read (Elt Ideal) G : FVec Ideal S488x32 .f32) (ix2 p j) = G (ix2 i j) := by
  obtain ⟨e0_0, e0_1, e1_0, e1_1, e2_0, e2_1, e3_0, e3_1, e4_0, e4_1, e5_0, e5_1, e6_0, e6_1, e7_0, e7_1, e8_0, e8_1⟩ := idx_facts t
  rw [View.read_apply]
  show G _ = G _
  refine congrArg G ?_
  funext a
  apply Fin.ext
  match a with
  | ⟨0, _⟩ => show win0_8.index t (0 : Fin 2) * 488 + 1 * p.val = i.val; rw [e8_0, hi]; omega
  | ⟨1, _⟩ => show win0_8.index t (1 : Fin 2) * 32 + 1 * j.val = j.val; rw [e8_1]; omega

/-- Point `t` writes rows `488 t … 488 t + 487` of the first output's function: entry `(p, j)` of the stored block is the
    body's value over the point's input blocks, and each input block is the matching rows of its array. -/
theorem flushed7_eq (c : Dev nD) (t : Fin cfg0.N) :
    (dats m 0 c).flushed 7 t = ((cfg0.win 7).blk t).view.read (Elt Ideal) (centerOut m c) := by
  rw [flushed7]
  unfold out0_7
  rw [View.canon_unit_zero hz]
  simp only [View.ld_unit_zero (S := S488x4880) hz, View.ld_unit_zero (S := S4880x56) hz, View.ld_unit_zero (S := S488x56) hz,
    View.ld_unit_zero (S := S488x2) hz, View.ld_unit_zero (S := S56x32) hz, View.ld_unit_zero (S := S1x32) hz]
  funext y
  obtain ⟨p, j, rfl⟩ : ∃ (p : Fin 488) (j : Fin 32), y = ix2 p j := ⟨y 0, y 1, eq_ix2 y⟩
  have hp := p.isLt
  have hN : cfg0.N = 10 := N_0
  have ht := t.isLt
  have hi : 488 * t.val + p.val < 4880 := by omega
  refine ((center_apply (iblk m c 0 t) (iblk m c 1 t) (iblk m c 2 t) (iblk m c 4 t) (iblk m c 5 t) (iblk m c 6 t) p j).trans ?_).trans
    (blkOut7_apply (centerOut m c) t p j ⟨488 * t.val + p.val, hi⟩ rfl).symm
  rw [centerOut_apply]
  unfold Cert.Layer.fusedOut Cert.Layer.fusedPre Cert.Layer.dense
  refine congrArg Cert.Layer.leakyStrict ?_
  refine congrArg₂ (· + ·) (Finset.sum_congr rfl fun l _ => congrArg₂ (· * ·) ?_ (blkW_apply m c t l j)) (blkBias_apply m c t 0 j)
  exact congrArg₂ (· + ·) (blkCenter_apply m c t p l ⟨488 * t.val + p.val, hi⟩ rfl)
    (congrArg₂ (· * ·) (blkMask_apply m c t p 0 ⟨488 * t.val + p.val, hi⟩ rfl)
      (Finset.sum_congr rfl fun k _ => congrArg₂ (· * ·) (blkAdj_apply m c t p k ⟨488 * t.val + p.val, hi⟩ rfl) (blkSum_apply m c t k l)))

/-- Point `t` writes rows `488 t … 488 t + 487` of the second output's function: entry `(p, j)` of the stored block is the
    body's value over the point's input blocks, and each input block is the matching rows of its array. -/
theorem flushed8_eq (c : Dev nD) (t : Fin cfg0.N) :
    (dats m 0 c).flushed 8 t = ((cfg0.win 8).blk t).view.read (Elt Ideal) (neighOut m c) := by
  rw [flushed8]
  unfold out0_8
  rw [View.canon_unit_zero hz]
  simp only [View.ld_unit_zero (S := S488x4880) hz, View.ld_unit_zero (S := S4880x56) hz, View.ld_unit_zero (S := S488x56) hz,
    View.ld_unit_zero (S := S488x2) hz, View.ld_unit_zero (S := S56x32) hz, View.ld_unit_zero (S := S1x32) hz]
  funext y
  obtain ⟨p, j, rfl⟩ : ∃ (p : Fin 488) (j : Fin 32), y = ix2 p j := ⟨y 0, y 1, eq_ix2 y⟩
  have hp := p.isLt
  have hN : cfg0.N = 10 := N_0
  have ht := t.isLt
  have hi : 488 * t.val + p.val < 4880 := by omega
  refine ((neigh_apply (iblk m c 0 t) (iblk m c 1 t) (iblk m c 3 t) (iblk m c 4 t) (iblk m c 5 t) (iblk m c 6 t) p j).trans ?_).trans
    (blkOut8_apply (neighOut m c) t p j ⟨488 * t.val + p.val, hi⟩ rfl).symm
  rw [neighOut_apply]
  unfold Cert.Layer.fusedOut Cert.Layer.fusedPre Cert.Layer.dense
  refine congrArg Cert.Layer.leakyStrict ?_
  refine congrArg₂ (· + ·) (Finset.sum_congr rfl fun l _ => congrArg₂ (· * ·) ?_ (blkW_apply m c t l j)) (blkBias_apply m c t 0 j)
  exact congrArg₂ (· + ·) (blkNeigh_apply m c t p l ⟨488 * t.val + p.val, hi⟩ rfl)
    (congrArg₂ (· * ·) (blkMask_apply m c t p 1 ⟨488 * t.val + p.val, hi⟩ rfl)
      (Finset.sum_congr rfl fun k _ => congrArg₂ (· * ·) (blkAdj_apply m c t p k ⟨488 * t.val + p.val, hi⟩ rfl) (blkSum_apply m c t k l)))

/-! ## The ten row blocks cover each output -/

/-- An index is in point `t`'s block of the first output iff each coordinate is in the block's range on its axis. -/
theorem mem_blk7 (t : Fin cfg0.N) (i : S4880x32.Idx) :
    i ∈ ((cfg0.win 7).blk t).view.set ↔ ∀ a : Fin 2, win0_7.index t a * S488x32.size a ≤ (i a).val ∧ (i a).val < win0_7.index t a * S488x32.size a + S488x32.size a := by
  show i ∈ ((View.whole main_v32_0).slice (win0_7.rect t)).set ↔ _
  rw [View.set_slice_whole, Rect.mem_set_unit]
  exact Iff.rfl

/-- The same for the second output. -/
theorem mem_blk8 (t : Fin cfg0.N) (i : S4880x32.Idx) :
    i ∈ ((cfg0.win 8).blk t).view.set ↔ ∀ a : Fin 2, win0_8.index t a * S488x32.size a ≤ (i a).val ∧ (i a).val < win0_8.index t a * S488x32.size a + S488x32.size a := by
  show i ∈ ((View.whole main_v32_1).slice (win0_8.rect t)).set ↔ _
  rw [View.set_slice_whole, Rect.mem_set_unit]
  exact Iff.rfl

/-- Row `r` of the first output is written by point `r / 488`. -/
theorem cover7 (i : S4880x32.Idx) : ∃ t : Fin cfg0.N, (cfg0.win 7).flush t = true ∧ i ∈ ((cfg0.win 7).blk t).view.set := by
  have hi0 : (i 0).val < 4880 := idx2_lt0 i
  have hi1 : (i 1).val < 32 := idx2_lt1 i
  have hN : cfg0.N = 10 := N_0
  have hlt : (i 0).val / 488 < cfg0.N := by rw [hN]; omega
  obtain ⟨e0_0, e0_1, e1_0, e1_1, e2_0, e2_1, e3_0, e3_1, e4_0, e4_1, e5_0, e5_1, e6_0, e6_1, e7_0, e7_1, e8_0, e8_1⟩ :=
    idx_facts ⟨(i 0).val / 488, hlt⟩
  refine ⟨⟨(i 0).val / 488, hlt⟩, flush0_7 _, ?_⟩
  rw [mem_blk7]
  intro a
  match a with
  | ⟨0, _⟩ =>
    show win0_7.index ⟨(i 0).val / 488, hlt⟩ (0 : Fin 2) * 488 ≤ (i 0).val ∧ (i 0).val < win0_7.index ⟨(i 0).val / 488, hlt⟩ (0 : Fin 2) * 488 + 488
    rw [e7_0]; show (i 0).val / 488 * 488 ≤ (i 0).val ∧ (i 0).val < (i 0).val / 488 * 488 + 488; omega
  | ⟨1, _⟩ =>
    show win0_7.index ⟨(i 0).val / 488, hlt⟩ (1 : Fin 2) * 32 ≤ (i 1).val ∧ (i 1).val < win0_7.index ⟨(i 0).val / 488, hlt⟩ (1 : Fin 2) * 32 + 32
    rw [e7_1]; omega

/-- Row `r` of the second output is written by point `r / 488`. -/
theorem cover8 (i : S4880x32.Idx) : ∃ t : Fin cfg0.N, (cfg0.win 8).flush t = true ∧ i ∈ ((cfg0.win 8).blk t).view.set := by
  have hi0 : (i 0).val < 4880 := idx2_lt0 i
  have hi1 : (i 1).val < 32 := idx2_lt1 i
  have hN : cfg0.N = 10 := N_0
  have hlt : (i 0).val / 488 < cfg0.N := by rw [hN]; omega
  obtain ⟨e0_0, e0_1, e1_0, e1_1, e2_0, e2_1, e3_0, e3_1, e4_0, e4_1, e5_0, e5_1, e6_0, e6_1, e7_0, e7_1, e8_0, e8_1⟩ :=
    idx_facts ⟨(i 0).val / 488, hlt⟩
  refine ⟨⟨(i 0).val / 488, hlt⟩, flush0_8 _, ?_⟩
  rw [mem_blk8]
  intro a
  match a with
  | ⟨0, _⟩ =>
    show win0_8.index ⟨(i 0).val / 488, hlt⟩ (0 : Fin 2) * 488 ≤ (i 0).val ∧ (i 0).val < win0_8.index ⟨(i 0).val / 488, hlt⟩ (0 : Fin 2) * 488 + 488
    rw [e8_0]; show (i 0).val / 488 * 488 ≤ (i 0).val ∧ (i 0).val < (i 0).val / 488 * 488 + 488; omega
  | ⟨1, _⟩ =>
    show win0_8.index ⟨(i 0).val / 488, hlt⟩ (1 : Fin 2) * 32 ≤ (i 1).val ∧ (i 1).val < win0_8.index ⟨(i 0).val / 488, hlt⟩ (1 : Fin 2) * 32 + 32
    rw [e8_1]; omega

/-! ## The arrays after the run -/

/-- The first output array ends holding its whole-array function. -/
theorem final7 (c : Dev nD) : (dats m 0 c).arrAt 7 cfg0.N = centerOut m c :=
  (dats m 0 c).arrAt_eq_of_cover 7 (centerOut m c) (fun t _ => flushed7_eq m c t) cover7

/-- So does the second. -/
theorem final8 (c : Dev nD) : (dats m 0 c).arrAt 8 cfg0.N = neighOut m c :=
  (dats m 0 c).arrAt_eq_of_cover 8 (neighOut m c) (fun t _ => flushed8_eq m c t) cover8

/-- Every weakly fair execution of the program terminates with the two outputs at their whole-array functions and
    the nine arguments unchanged. -/
theorem run : θ_run defs (onTc (τ := τ) (main (F := Ideal))) ⟨m, fun _ => 0, ρ⟩ fun r => ∀ c : Dev nD,
      r.2.mem ((c : Thread nD τ).loc main_v32_0) = centerOut m c
      ∧ r.2.mem ((c : Thread nD τ).loc main_v32_1) = neighOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final7 m c), (h c).2.1.trans (final8 m c), (h c).2.2⟩)
    (Value.run_blocks m ρ)

end Cert.KernelIdeal.Region

end
-- ==== Proof.RefRun.lean ====
/-
  The reference program's run, written out by hand.

  The reference is a straight line of seventy tensor operations: forty-nine of its own, and twice the seven of the
  leaky rectifier (a zero, its broadcast, the comparison `x ≥ 0`, the slope converted and broadcast, the product
  `slope * x`, and the selection between `x` and that product), which the program reaches through two nested calls
  and which are listed here inline, at each call's own buffers. Run from any memory, every result buffer ends at the
  composition of the operations' functions over the nine arguments, and the arguments are unchanged.

  The composition is named in pieces that follow the mathematics of the layer:
  * `col`: a length-4880 mask as a one-column matrix;
  * `centerFull`, `neighFull`: the two 56-column feature tables (a masked 28-column embedding beside a masked
    28-column row gathered by category index);
  * `pre`: a table plus the mask times the adjacency-aggregate of itself plus the mask times the aggregate of the
    other table;
  * `dense`: the product with the weight matrix plus the bias on every row;
  * `leaky`: the rectifier, `x` where `x ≥ 0` and `slope * x` elsewhere;
  * `outCenter`, `outNeigh`: `leaky (dense (pre …))` for the two roles of the tables.
-/
import proofs.«103284_j6811818131656_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- A length-4880 vector as a one-column matrix. -/
def col (a : FVec F S4880 .f32) : FVec F S4880x1 .f32 :=
  broadcastInDim S4880x1 ![0] bcast_S4880_S4880x1_0 a

/-- A one-column matrix repeated along 28 columns. -/
def bc28 (c : FVec F S4880x1 .f32) : FVec F S4880x28 .f32 :=
  broadcastInDim S4880x28 ![0, 1] bcast_S4880x1_S4880x28_0_1 c

/-- A one-column matrix repeated along 56 columns. -/
def bc56 (c : FVec F S4880x1 .f32) : FVec F S4880x56 .f32 :=
  broadcastInDim S4880x56 ![0, 1] bcast_S4880x1_S4880x56_0_1 c

/-- Two 28-column tables side by side. -/
def cat (a b : FVec F S4880x28 .f32) : FVec F S4880x56 .f32 :=
  concatenate S4880x56 1 [⟨S4880x28, a⟩, ⟨S4880x28, b⟩] concatenates_S4880x28_S4880x28_S4880x56_d1

/-- The category indices made non-negative (a negative index is counted from the end of a table of `n` rows), as a
    one-column index matrix. -/
def wrapIdx (n : BitVec 32) (a5 : IVec S4880 32) : IVec S4880x1 32 :=
  broadcastInDim S4880x1 ![0] bcast_S4880_S4880x1_0
    (select (cmpi .slt a5 (broadcastInDim S4880 ![] bcast_S_S4880 (constantI S_ 32 0#32)))
      (addi a5 (broadcastInDim S4880 ![] bcast_S_S4880 (constantI S_ 32 n))) a5)

/-- The masked category rows: node `i`'s row is its mask times the row of the category table its index names. -/
def catRows (a0 : FVec F S4880 .f32) (a4 : FVec F S128x28 .f32) (a5 : IVec S4880 32) : FVec F S4880x28 .f32 :=
  mulf (bc28 (col a0)) (Host.gather gather_S128x28_S4880x1_S4880x28_1_0_n_n_0_1_128 a4 (wrapIdx 128#32 a5))

/-- The centre table: the masked centre embeddings beside the masked category rows. -/
def centerFull (a0 : FVec F S4880 .f32) (a2 : FVec F S4880x28 .f32) (a4 : FVec F S128x28 .f32) (a5 : IVec S4880 32) :
    FVec F S4880x56 .f32 :=
  cat (mulf (bc28 (col a0)) a2) (catRows a0 a4 a5)

/-- The neighbour table: the masked neighbour embeddings beside the masked rows gathered, by category index, from
    the twice-masked category rows. -/
def neighFull (a0 a1 : FVec F S4880 .f32) (a3 : FVec F S4880x28 .f32) (a4 : FVec F S128x28 .f32) (a5 : IVec S4880 32) :
    FVec F S4880x56 .f32 :=
  cat (mulf (bc28 (col a1)) a3)
    (mulf (bc28 (col a1))
      (Host.gather gather_S4880x28_S4880x1_S4880x28_1_0_n_n_0_1_128 (mulf (bc28 (col a0)) (catRows a0 a4 a5)) (wrapIdx 4880#32 a5)))

/-- The adjacency-aggregate of a table: the adjacency matrix times the table. -/
def agg (adj : FVec F S4880x4880 .f32) (x : FVec F S4880x56 .f32) : FVec F S4880x56 .f32 :=
  Host.dotGeneral dot_S4880x4880_S4880x56_S4880x56_1_0_0_1_n_n none adj x

/-- The pre-activation: a table, plus the mask times its own aggregate, plus the mask times the other table's. -/
def pre (own other : FVec F S4880x56 .f32) (c : FVec F S4880x1 .f32) (adj : FVec F S4880x4880 .f32) : FVec F S4880x56 .f32 :=
  addf (addf own (mulf (bc56 c) (agg adj own))) (mulf (bc56 c) (agg adj other))

/-- The bias on every row. -/
def biasRows (b : FVec F S32 .f32) : FVec F S4880x32 .f32 :=
  broadcastInDim S4880x32 ![0, 1] bcast_S1x32_S4880x32_0_1 (broadcastInDim S1x32 ![1] bcast_S32_S1x32_1 b)

/-- The dense layer: the product with the weights plus the bias. -/
def dense (h : FVec F S4880x56 .f32) (W : FVec F S56x32 .f32) (b : FVec F S32 .f32) : FVec F S4880x32 .f32 :=
  addf (Host.dotGeneral dot_S4880x56_S56x32_S4880x32_1_0_0_1_n_n none h W) (biasRows b)

/-- The leaky rectifier: `x` where `x ≥ 0`, the slope times `x` elsewhere. -/
def leaky (x : FVec F S4880x32 .f32) : FVec F S4880x32 .f32 :=
  select (cmpf .oge x (broadcastInDim S4880x32 ![] bcast_S_S4880x32 (constant S_ .f32 0x00000000#32))) x
    (mulf (broadcastInDim S4880x32 ![] bcast_S_S4880x32 (constant S_ .f32 0x3C23D70A#32)) x)

/-- The centre output from the two tables `cf`, `nf` and the centre mask column `c0`. -/
def outCenter (cf nf : FVec F S4880x56 .f32) (c0 : FVec F S4880x1 .f32) (adj : FVec F S4880x4880 .f32)
    (W : FVec F S56x32 .f32) (b : FVec F S32 .f32) : FVec F S4880x32 .f32 :=
  leaky (dense (pre cf nf c0 adj) W b)

/-- The neighbour output: the tables in the other roles, with the neighbour mask column `c1`. -/
def outNeigh (cf nf : FVec F S4880x56 .f32) (c1 : FVec F S4880x1 .f32) (adj : FVec F S4880x4880 .f32)
    (W : FVec F S56x32 .f32) (b : FVec F S32 .f32) : FVec F S4880x32 .f32 :=
  leaky (dense (pre nf cf c1 adj) W b)

/-! ## The operations, in order -/

/-- The seventy operations: the program's forty-nine up to the first rectifier, the rectifier's seven at the first
    call's buffers, the seven up to the second rectifier, and the rectifier's seven at the second call's buffers. -/
abbrev ops : List (HloOp τ sig (Elt F)) :=
  [
    unary main_arg0 main_v0 (broadcastInDim S4880x1 ![0] bcast_S4880_S4880x1_0 : (⟨S4880, .f32⟩ : BufTy).Contents (Elt F) → (⟨S4880x1, .f32⟩ : BufTy).Contents (Elt F)),
    unary main_arg1 main_v1 (broadcastInDim S4880x1 ![0] bcast_S4880_S4880x1_0 : (⟨S4880, .f32⟩ : BufTy).Contents (Elt F) → (⟨S4880x1, .f32⟩ : BufTy).Contents (Elt F)),
    unary main_v0 main_v2 (broadcastInDim S4880x28 ![0, 1] bcast_S4880x1_S4880x28_0_1 : (⟨S4880x1, .f32⟩ : BufTy).Contents (Elt F) → (⟨S4880x28, .f32⟩ : BufTy).Contents (Elt F)),
    binary main_v2 main_arg2 main_v3 (mulf : (⟨S4880x28, .f32⟩ : BufTy).Contents (Elt F) → (⟨S4880x28, .f32⟩ : BufTy).Contents (Elt F) → (⟨S4880x28, .f32⟩ : BufTy).Contents (Elt F)),
    nullary main_c (constantI S_ 32 0#32),
    unary main_c main_v4 (broadcastInDim S4880 ![] bcast_S_S4880 : (⟨S_, .i32⟩ : BufTy).Contents (Elt F) → (⟨S4880, .i32⟩ : BufTy).Contents (Elt F)),
    binary main_arg5 main_v4 main_v5 (cmpi .slt : (⟨S4880, .i32⟩ : BufTy).Contents (Elt F) → (⟨S4880, .i32⟩ : BufTy).Contents (Elt F) → (⟨S4880, .i1⟩ : BufTy).Contents (Elt F)),
    nullary main_c_0 (constantI S_ 32 128#32),
    unary main_c_0 main_v6 (broadcastInDim S4880 ![] bcast_S_S4880 : (⟨S_, .i32⟩ : BufTy).Contents (Elt F) → (⟨S4880, .i32⟩ : BufTy).Contents (Elt F)),
    binary main_arg5 main_v6 main_v7 (addi : (⟨S4880, .i32⟩ : BufTy).Contents (Elt F) → (⟨S4880, .i32⟩ : BufTy).Contents (Elt F) → (⟨S4880, .i32⟩ : BufTy).Contents (Elt F)),
    ternary main_v5 main_v7 main_arg5 main_v8 (select : (⟨S4880, .i1⟩ : BufTy).Contents (Elt F) → (⟨S4880, .i32⟩ : BufTy).Contents (Elt F) → (⟨S4880, .i32⟩ : BufTy).Contents (Elt F) → (⟨S4880, .i32⟩ : BufTy).Contents (Elt F)),
    unary main_v8 main_v9 (broadcastInDim S4880x1 ![0] bcast_S4880_S4880x1_0 : (⟨S4880, .i32⟩ : BufTy).Contents (Elt F) → (⟨S4880x1, .i32⟩ : BufTy).Contents (Elt F)),
    binary main_arg4 main_v9 main_v10 ((fun x i => Host.gather gather_S128x28_S4880x1_S4880x28_1_0_n_n_0_1_128 x i) : (⟨S128x28, .f32⟩ : BufTy).Contents (Elt F) → (⟨S4880x1, .i32⟩ : BufTy).Contents (Elt F) → (⟨S4880x28, .f32⟩ : BufTy).Contents (Elt F)),
    unary main_v0 main_v11 (broadcastInDim S4880x28 ![0, 1] bcast_S4880x1_S4880x28_0_1 : (⟨S4880x1, .f32⟩ : BufTy).Contents (Elt F) → (⟨S4880x28, .f32⟩ : BufTy).Contents (Elt F)),
    binary main_v11 main_v10 main_v12 (mulf : (⟨S4880x28, .f32⟩ : BufTy).Contents (Elt F) → (⟨S4880x28, .f32⟩ : BufTy).Contents (Elt F) → (⟨S4880x28, .f32⟩ : BufTy).Contents (Elt F)),
    unary main_v0 main_v13 (broadcastInDim S4880x28 ![0, 1] bcast_S4880x1_S4880x28_0_1 : (⟨S4880x1, .f32⟩ : BufTy).Contents (Elt F) → (⟨S4880x28, .f32⟩ : BufTy).Contents (Elt F)),
    binary main_v13 main_v12 main_v14 (mulf : (⟨S4880x28, .f32⟩ : BufTy).Contents (Elt F) → (⟨S4880x28, .f32⟩ : BufTy).Contents (Elt F) → (⟨S4880x28, .f32⟩ : BufTy).Contents (Elt F)),
    binary main_v3 main_v12 main_v15 ((fun a b => concatenate S4880x56 1 [⟨S4880x28, a⟩, ⟨S4880x28, b⟩] concatenates_S4880x28_S4880x28_S4880x56_d1) : (⟨S4880x28, .f32⟩ : BufTy).Contents (Elt F) → (⟨S4880x28, .f32⟩ : BufTy).Contents (Elt F) → (⟨S4880x56, .f32⟩ : BufTy).Contents (Elt F)),
    unary main_v1 main_v16 (broadcastInDim S4880x28 ![0, 1] bcast_S4880x1_S4880x28_0_1 : (⟨S4880x1, .f32⟩ : BufTy).Contents (Elt F) → (⟨S4880x28, .f32⟩ : BufTy).Contents (Elt F)),
    binary main_v16 main_arg3 main_v17 (mulf : (⟨S4880x28, .f32⟩ : BufTy).Contents (Elt F) → (⟨S4880x28, .f32⟩ : BufTy).Contents (Elt F) → (⟨S4880x28, .f32⟩ : BufTy).Contents (Elt F)),
    nullary main_c_1 (constantI S_ 32 0#32),
    unary main_c_1 main_v18 (broadcastInDim S4880 ![] bcast_S_S4880 : (⟨S_, .i32⟩ : BufTy).Contents (Elt F) → (⟨S4880, .i32⟩ : BufTy).Contents (Elt F)),
    binary main_arg5 main_v18 main_v19 (cmpi .slt : (⟨S4880, .i32⟩ : BufTy).Contents (Elt F) → (⟨S4880, .i32⟩ : BufTy).Contents (Elt F) → (⟨S4880, .i1⟩ : BufTy).Contents (Elt F)),
    nullary main_c_2 (constantI S_ 32 4880#32),
    unary main_c_2 main_v20 (broadcastInDim S4880 ![] bcast_S_S4880 : (⟨S_, .i32⟩ : BufTy).Contents (Elt F) → (⟨S4880, .i32⟩ : BufTy).Contents (Elt F)),
    binary main_arg5 main_v20 main_v21 (addi : (⟨S4880, .i32⟩ : BufTy).Contents (Elt F) → (⟨S4880, .i32⟩ : BufTy).Contents (Elt F) → (⟨S4880, .i32⟩ : BufTy).Contents (Elt F)),
    ternary main_v19 main_v21 main_arg5 main_v22 (select : (⟨S4880, .i1⟩ : BufTy).Contents (Elt F) → (⟨S4880, .i32⟩ : BufTy).Contents (Elt F) → (⟨S4880, .i32⟩ : BufTy).Contents (Elt F) → (⟨S4880, .i32⟩ : BufTy).Contents (Elt F)),
    unary main_v22 main_v23 (broadcastInDim S4880x1 ![0] bcast_S4880_S4880x1_0 : (⟨S4880, .i32⟩ : BufTy).Contents (Elt F) → (⟨S4880x1, .i32⟩ : BufTy).Contents (Elt F)),
    binary main_v14 main_v23 main_v24 ((fun x i => Host.gather gather_S4880x28_S4880x1_S4880x28_1_0_n_n_0_1_128 x i) : (⟨S4880x28, .f32⟩ : BufTy).Contents (Elt F) → (⟨S4880x1, .i32⟩ : BufTy).Contents (Elt F) → (⟨S4880x28, .f32⟩ : BufTy).Contents (Elt F)),
    unary main_v1 main_v25 (broadcastInDim S4880x28 ![0, 1] bcast_S4880x1_S4880x28_0_1 : (⟨S4880x1, .f32⟩ : BufTy).Contents (Elt F) → (⟨S4880x28, .f32⟩ : BufTy).Contents (Elt F)),
    binary main_v25 main_v24 main_v26 (mulf : (⟨S4880x28, .f32⟩ : BufTy).Contents (Elt F) → (⟨S4880x28, .f32⟩ : BufTy).Contents (Elt F) → (⟨S4880x28, .f32⟩ : BufTy).Contents (Elt F)),
    binary main_v17 main_v26 main_v27 ((fun a b => concatenate S4880x56 1 [⟨S4880x28, a⟩, ⟨S4880x28, b⟩] concatenates_S4880x28_S4880x28_S4880x56_d1) : (⟨S4880x28, .f32⟩ : BufTy).Contents (Elt F) → (⟨S4880x28, .f32⟩ : BufTy).Contents (Elt F) → (⟨S4880x56, .f32⟩ : BufTy).Contents (Elt F)),
    binary main_arg6 main_v15 main_v28 ((fun l r => Host.dotGeneral dot_S4880x4880_S4880x56_S4880x56_1_0_0_1_n_n none l r) : (⟨S4880x4880, .f32⟩ : BufTy).Contents (Elt F) → (⟨S4880x56, .f32⟩ : BufTy).Contents (Elt F) → (⟨S4880x56, .f32⟩ : BufTy).Contents (Elt F)),
    binary main_arg6 main_v27 main_v29 ((fun l r => Host.dotGeneral dot_S4880x4880_S4880x56_S4880x56_1_0_0_1_n_n none l r) : (⟨S4880x4880, .f32⟩ : BufTy).Contents (Elt F) → (⟨S4880x56, .f32⟩ : BufTy).Contents (Elt F) → (⟨S4880x56, .f32⟩ : BufTy).Contents (Elt F)),
    unary main_v0 main_v30 (broadcastInDim S4880x56 ![0, 1] bcast_S4880x1_S4880x56_0_1 : (⟨S4880x1, .f32⟩ : BufTy).Contents (Elt F) → (⟨S4880x56, .f32⟩ : BufTy).Contents (Elt F)),
    binary main_v30 main_v28 main_v31 (mulf : (⟨S4880x56, .f32⟩ : BufTy).Contents (Elt F) → (⟨S4880x56, .f32⟩ : BufTy).Contents (Elt F) → (⟨S4880x56, .f32⟩ : BufTy).Contents (Elt F)),
    unary main_v0 main_v32 (broadcastInDim S4880x56 ![0, 1] bcast_S4880x1_S4880x56_0_1 : (⟨S4880x1, .f32⟩ : BufTy).Contents (Elt F) → (⟨S4880x56, .f32⟩ : BufTy).Contents (Elt F)),
    binary main_v32 main_v29 main_v33 (mulf : (⟨S4880x56, .f32⟩ : BufTy).Contents (Elt F) → (⟨S4880x56, .f32⟩ : BufTy).Contents (Elt F) → (⟨S4880x56, .f32⟩ : BufTy).Contents (Elt F)),
    unary main_v1 main_v34 (broadcastInDim S4880x56 ![0, 1] bcast_S4880x1_S4880x56_0_1 : (⟨S4880x1, .f32⟩ : BufTy).Contents (Elt F) → (⟨S4880x56, .f32⟩ : BufTy).Contents (Elt F)),
    binary main_v34 main_v29 main_v35 (mulf : (⟨S4880x56, .f32⟩ : BufTy).Contents (Elt F) → (⟨S4880x56, .f32⟩ : BufTy).Contents (Elt F) → (⟨S4880x56, .f32⟩ : BufTy).Contents (Elt F)),
    unary main_v1 main_v36 (broadcastInDim S4880x56 ![0, 1] bcast_S4880x1_S4880x56_0_1 : (⟨S4880x1, .f32⟩ : BufTy).Contents (Elt F) → (⟨S4880x56, .f32⟩ : BufTy).Contents (Elt F)),
    binary main_v36 main_v28 main_v37 (mulf : (⟨S4880x56, .f32⟩ : BufTy).Contents (Elt F) → (⟨S4880x56, .f32⟩ : BufTy).Contents (Elt F) → (⟨S4880x56, .f32⟩ : BufTy).Contents (Elt F)),
    binary main_v15 main_v31 main_v38 (addf : (⟨S4880x56, .f32⟩ : BufTy).Contents (Elt F) → (⟨S4880x56, .f32⟩ : BufTy).Contents (Elt F) → (⟨S4880x56, .f32⟩ : BufTy).Contents (Elt F)),
    binary main_v38 main_v33 main_v39 (addf : (⟨S4880x56, .f32⟩ : BufTy).Contents (Elt F) → (⟨S4880x56, .f32⟩ : BufTy).Contents (Elt F) → (⟨S4880x56, .f32⟩ : BufTy).Contents (Elt F)),
    binary main_v39 main_arg7 main_v40 ((fun l r => Host.dotGeneral dot_S4880x56_S56x32_S4880x32_1_0_0_1_n_n none l r) : (⟨S4880x56, .f32⟩ : BufTy).Contents (Elt F) → (⟨S56x32, .f32⟩ : BufTy).Contents (Elt F) → (⟨S4880x32, .f32⟩ : BufTy).Contents (Elt F)),
    unary main_arg8 main_v41 (broadcastInDim S1x32 ![1] bcast_S32_S1x32_1 : (⟨S32, .f32⟩ : BufTy).Contents (Elt F) → (⟨S1x32, .f32⟩ : BufTy).Contents (Elt F)),
    unary main_v41 main_v42 (broadcastInDim S4880x32 ![0, 1] bcast_S1x32_S4880x32_0_1 : (⟨S1x32, .f32⟩ : BufTy).Contents (Elt F) → (⟨S4880x32, .f32⟩ : BufTy).Contents (Elt F)),
    binary main_v40 main_v42 main_v43 (addf : (⟨S4880x32, .f32⟩ : BufTy).Contents (Elt F) → (⟨S4880x32, .f32⟩ : BufTy).Contents (Elt F) → (⟨S4880x32, .f32⟩ : BufTy).Contents (Elt F)),
    nullary main_cst (constant S_ .f32 0x3C23D70A#32),
    TRef.nullary main_call0.cst (constant S_ .f32 0x00000000#32),
    TRef.unary main_call0.cst main_call0.v0 (broadcastInDim S4880x32 ![] bcast_S_S4880x32),
    TRef.binary (.of main_v43 : TRef sig ⟨S4880x32, .f32⟩) main_call0.v0 main_call0.v1 (cmpf .oge),
    TRef.unary (.of main_cst : TRef sig ⟨S_, .f32⟩) main_call0.v2 id,
    TRef.unary main_call0.v2 main_call0.v3 (broadcastInDim S4880x32 ![] bcast_S_S4880x32),
    TRef.binary main_call0.v3 (.of main_v43 : TRef sig ⟨S4880x32, .f32⟩) main_call0.v4 mulf,
    TRef.ternary main_call0.v1 (.of main_v43 : TRef sig ⟨S4880x32, .f32⟩) main_call0.v4 main_call0.call0.v0 select,
    binary main_v27 main_v35 main_v45 (addf : (⟨S4880x56, .f32⟩ : BufTy).Contents (Elt F) → (⟨S4880x56, .f32⟩ : BufTy).Contents (Elt F) → (⟨S4880x56, .f32⟩ : BufTy).Contents (Elt F)),
    binary main_v45 main_v37 main_v46 (addf : (⟨S4880x56, .f32⟩ : BufTy).Contents (Elt F) → (⟨S4880x56, .f32⟩ : BufTy).Contents (Elt F) → (⟨S4880x56, .f32⟩ : BufTy).Contents (Elt F)),
    binary main_v46 main_arg7 main_v47 ((fun l r => Host.dotGeneral dot_S4880x56_S56x32_S4880x32_1_0_0_1_n_n none l r) : (⟨S4880x56, .f32⟩ : BufTy).Contents (Elt F) → (⟨S56x32, .f32⟩ : BufTy).Contents (Elt F) → (⟨S4880x32, .f32⟩ : BufTy).Contents (Elt F)),
    unary main_arg8 main_v48 (broadcastInDim S1x32 ![1] bcast_S32_S1x32_1 : (⟨S32, .f32⟩ : BufTy).Contents (Elt F) → (⟨S1x32, .f32⟩ : BufTy).Contents (Elt F)),
    unary main_v48 main_v49 (broadcastInDim S4880x32 ![0, 1] bcast_S1x32_S4880x32_0_1 : (⟨S1x32, .f32⟩ : BufTy).Contents (Elt F) → (⟨S4880x32, .f32⟩ : BufTy).Contents (Elt F)),
    binary main_v47 main_v49 main_v50 (addf : (⟨S4880x32, .f32⟩ : BufTy).Contents (Elt F) → (⟨S4880x32, .f32⟩ : BufTy).Contents (Elt F) → (⟨S4880x32, .f32⟩ : BufTy).Contents (Elt F)),
    nullary main_cst_3 (constant S_ .f32 0x3C23D70A#32),
    TRef.nullary main_call1.cst (constant S_ .f32 0x00000000#32),
    TRef.unary main_call1.cst main_call1.v0 (broadcastInDim S4880x32 ![] bcast_S_S4880x32),
    TRef.binary (.of main_v50 : TRef sig ⟨S4880x32, .f32⟩) main_call1.v0 main_call1.v1 (cmpf .oge),
    TRef.unary (.of main_cst_3 : TRef sig ⟨S_, .f32⟩) main_call1.v2 id,
    TRef.unary main_call1.v2 main_call1.v3 (broadcastInDim S4880x32 ![] bcast_S_S4880x32),
    TRef.binary main_call1.v3 (.of main_v50 : TRef sig ⟨S4880x32, .f32⟩) main_call1.v4 mulf,
    TRef.ternary main_call1.v1 (.of main_v50 : TRef sig ⟨S4880x32, .f32⟩) main_call1.v4 main_call1.call0.v0 select ]

-- the two sides are the same chain of steps once the binds are evaluated: the functions' bodies unfold at their calls
set_option maxRecDepth 8192 in
/-- The program is that straight line: the two functions unfolded at their calls, both sides compute to one chain of
    steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., unary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., binary_bufs_sub .., binary_bufs_sub .., binary_bufs_sub .., unary_bufs_sub .., binary_bufs_sub ..,
    unary_bufs_sub .., binary_bufs_sub .., unary_bufs_sub .., binary_bufs_sub .., unary_bufs_sub .., binary_bufs_sub ..,
    binary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

/-! ## What the line leaves in each buffer -/

attribute [local irreducible] Host.gather concatenate in
set_option maxRecDepth 8192 in
set_option maxHeartbeats 1000000 in
/-- The first result buffer after the line, from any contents `V`: the centre output of the arguments. -/
theorem v44_eq (V : Valuation τ sig (Elt F)) :
    after ops V (main_v44 : DevRef τ sig)
      = outCenter (centerFull (V (main_arg0 : DevRef τ sig)) (V (main_arg2 : DevRef τ sig)) (V (main_arg4 : DevRef τ sig)) (V (main_arg5 : DevRef τ sig))) (neighFull (V (main_arg0 : DevRef τ sig)) (V (main_arg1 : DevRef τ sig)) (V (main_arg3 : DevRef τ sig)) (V (main_arg4 : DevRef τ sig)) (V (main_arg5 : DevRef τ sig))) (col (V (main_arg0 : DevRef τ sig))) (V (main_arg6 : DevRef τ sig)) (V (main_arg7 : DevRef τ sig)) (V (main_arg8 : DevRef τ sig)) := by
  after_results_simp
  rfl

attribute [local irreducible] Host.gather concatenate in
set_option maxRecDepth 8192 in
set_option maxHeartbeats 1000000 in
/-- The second result buffer after the line: the neighbour output of the arguments. -/
theorem v51_eq (V : Valuation τ sig (Elt F)) :
    after ops V (main_v51 : DevRef τ sig)
      = outNeigh (centerFull (V (main_arg0 : DevRef τ sig)) (V (main_arg2 : DevRef τ sig)) (V (main_arg4 : DevRef τ sig)) (V (main_arg5 : DevRef τ sig))) (neighFull (V (main_arg0 : DevRef τ sig)) (V (main_arg1 : DevRef τ sig)) (V (main_arg3 : DevRef τ sig)) (V (main_arg4 : DevRef τ sig)) (V (main_arg5 : DevRef τ sig))) (col (V (main_arg1 : DevRef τ sig))) (V (main_arg6 : DevRef τ sig)) (V (main_arg7 : DevRef τ sig)) (V (main_arg8 : DevRef τ sig)) := by
  after_results_simp
  rfl

set_option maxRecDepth 8192 in
set_option maxHeartbeats 1000000 in
/-- No operation writes an argument's buffer. -/
theorem args_eq (V : Valuation τ sig (Elt F)) :
    after ops V (main_arg0 : DevRef τ sig) = (V (main_arg0 : DevRef τ sig))
    ∧ after ops V (main_arg1 : DevRef τ sig) = (V (main_arg1 : DevRef τ sig))
    ∧ after ops V (main_arg2 : DevRef τ sig) = (V (main_arg2 : DevRef τ sig))
    ∧ after ops V (main_arg3 : DevRef τ sig) = (V (main_arg3 : DevRef τ sig))
    ∧ after ops V (main_arg4 : DevRef τ sig) = (V (main_arg4 : DevRef τ sig))
    ∧ after ops V (main_arg5 : DevRef τ sig) = (V (main_arg5 : DevRef τ sig))
    ∧ after ops V (main_arg6 : DevRef τ sig) = (V (main_arg6 : DevRef τ sig))
    ∧ after ops V (main_arg7 : DevRef τ sig) = (V (main_arg7 : DevRef τ sig))
    ∧ after ops V (main_arg8 : DevRef τ sig) = (V (main_arg8 : DevRef τ sig)) := by
  refine ⟨?_, ?_, ?_, ?_, ?_, ?_, ?_, ?_, ?_⟩ <;> after_results_simp

/-! ## The run -/

/-- On every device, for any float values, from any memory with zero counters: every weakly fair execution of the
    program terminates with the two results at the centre and neighbour outputs of the arguments' launch contents,
    and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = outCenter (centerFull (m ((c.tc : Thread nD τ).loc main_arg0)) (m ((c.tc : Thread nD τ).loc main_arg2)) (m ((c.tc : Thread nD τ).loc main_arg4)) (m ((c.tc : Thread nD τ).loc main_arg5))) (neighFull (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (col (m ((c.tc : Thread nD τ).loc main_arg0))) (m ((c.tc : Thread nD τ).loc main_arg6)) (m ((c.tc : Thread nD τ).loc main_arg7)) (m ((c.tc : Thread nD τ).loc main_arg8))
      ∧ r.2.mem ((c.tc : Thread nD τ).loc main_v51)
          = outNeigh (centerFull (m ((c.tc : Thread nD τ).loc main_arg0)) (m ((c.tc : Thread nD τ).loc main_arg2)) (m ((c.tc : Thread nD τ).loc main_arg4)) (m ((c.tc : Thread nD τ).loc main_arg5))) (neighFull (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (col (m ((c.tc : Thread nD τ).loc main_arg1))) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      have ha := args_eq (F := F) (launchContents m c)
      ⟨(h c main_v44).trans (v44_eq _), (h c main_v51).trans (v51_eq _),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2.1, (h c main_arg7).trans ha.2.2.2.2.2.2.2.1,
        (h c main_arg8).trans ha.2.2.2.2.2.2.2.2⟩)
    (run_seq scopedRefs_eq scopedSems_eq defs main (fun _ => ops) main_eq (fun _ => ops_sub) m ρ)

end Cert.ReferenceIdeal.RefRun

end
-- ==== Proof.HostPrefix.lean ====
/-
  The arrays the region finds, as the host operations before it leave them. Before the region the program builds,
  from its nine arguments: the two mask columns; the centre table (the masked centre embeddings beside the masked
  category rows) and the neighbour table (the masked neighbour embeddings beside the masked rows gathered from the
  twice-masked category rows); the entrywise sum of the two tables; the two mask columns side by side; and the bias as
  one row. Each of these is read here, from the composition of the operations' functions over the arguments: the two
  tables are the very terms the reference composes, the sum is read entry by entry, the mask pair column by column, the
  bias row entry by entry.
-/
import proofs.«103284_j6811818131656_2_alg».proof.Proof.Gen.KernelIdeal.Frame
import proofs.«103284_j6811818131656_2_alg».proof.Proof.RefRun
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostPrefix

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## A vector as a column, read at an index -/

/-- A length-4880 vector broadcast to a one-column matrix reads, at row `k`, the vector's entry `k`. -/
theorem bcastCol_apply {α : Type} (h : S4880.BroadcastsInDim S4880x1 (![0] : Fin 1 → Fin S4880x1.rank))
    (a : S4880.Idx → α) (k : Fin 4880) (u : Fin 1) :
    broadcastInDim S4880x1 ![0] h a (ix2 k u) = a (ix1 k) := by
  refine broadcastInDim_apply ![0] h a (ix2 k u) (ix1 k) fun ax => ?_
  match ax with
  | ⟨0, _⟩ =>
    show k.val = if (4880 : ℕ) = 1 then 0 else k.val
    rw [if_neg (by decide)]

/-- The reference's column of a vector reads, at row `k`, the vector's entry `k`. -/
theorem col_apply (a : FVec Ideal Cert.ReferenceIdeal.S4880 .f32) (k : Fin 4880) :
    Cert.ReferenceIdeal.RefRun.col a (ix2 k (0 : Fin 1)) = a (ix1 k) := by
  unfold Cert.ReferenceIdeal.RefRun.col
  exact bcastCol_apply _ a k 0

/-! ## The bias row -/

/-- The bias row is the bias vector with a leading unit axis. -/
theorem v31_eq : (V m c main_v31 : FVec Ideal S1x32 .f32)
    = shapeCast S1x32 (m ((c : Thread nD τ).loc main_arg8) : FVec Ideal S32 .f32) shapeCasts_S32_S1x32 := by
  dsimp only [Gen.V, Gen.hostOps0]
  after_results
  rfl

/-- The bias row at column `j` is the bias vector's entry `j`. -/
theorem bias_apply (j : Fin 32) :
    (V m c main_v31 : FVec Ideal S1x32 .f32) (ix2 (0 : Fin 1) j) = (m ((c : Thread nD τ).loc main_arg8) : FVec Ideal S32 .f32) (ix1 j) := by
  rw [v31_eq]
  exact shapeCast_a_1a_apply _ _ 0 j

/-! ## The mask pair -/

set_option maxHeartbeats 1000000 in
/-- The mask pair is the two mask columns side by side. -/
theorem v30_eq : (V m c main_v30 : FVec Ideal S4880x2 .f32)
    = concatenate S4880x2 1
        [⟨S4880x1, broadcastInDim S4880x1 ![0] bcast_S4880_S4880x1_0 (m ((c : Thread nD τ).loc main_arg0) : FVec Ideal S4880 .f32)⟩,
         ⟨S4880x1, broadcastInDim S4880x1 ![0] bcast_S4880_S4880x1_0 (m ((c : Thread nD τ).loc main_arg1) : FVec Ideal S4880 .f32)⟩]
        concatenates_S4880x1_S4880x1_S4880x2_d1 := by
  dsimp only [Gen.V, Gen.hostOps0]
  after_results

/-- Column 0 of the mask pair is the first mask. -/
theorem mask0_apply (k : Fin 4880) :
    (V m c main_v30 : FVec Ideal S4880x2 .f32) (ix2 k (0 : Fin 2)) = (m ((c : Thread nD τ).loc main_arg0) : FVec Ideal S4880 .f32) (ix1 k) := by
  rw [v30_eq]
  refine (concatenate_pair_apply_left (t := S4880x2) (s₁ := S4880x1) (s₂ := S4880x1) (1 : Fin 2) _ _
    concatenates_S4880x1_S4880x1_S4880x2_d1 (ix2 k (0 : Fin 2)) (rfl : (2 : ℕ) = 2)
    (ix2 k (0 : Fin 1)) fun b => ?_).trans (bcastCol_apply _ _ k 0)
  match b with
  | ⟨0, _⟩ => rfl
  | ⟨1, _⟩ => rfl

/-- Column 1 of the mask pair is the second mask. -/
theorem mask1_apply (k : Fin 4880) :
    (V m c main_v30 : FVec Ideal S4880x2 .f32) (ix2 k (1 : Fin 2)) = (m ((c : Thread nD τ).loc main_arg1) : FVec Ideal S4880 .f32) (ix1 k) := by
  rw [v30_eq]
  refine (concatenate_pair_apply_right (t := S4880x2) (s₁ := S4880x1) (s₂ := S4880x1) (1 : Fin 2) _ _
    concatenates_S4880x1_S4880x1_S4880x2_d1 (ix2 k (1 : Fin 2)) (rfl : (2 : ℕ) = 2) (rfl : (2 : ℕ) = 2)
    (ix2 k (0 : Fin 1)) (fun b hb => ?_) rfl).trans (bcastCol_apply _ _ k 0)
  match b, hb with
  | ⟨0, _⟩, _ => rfl
  | ⟨1, _⟩, hb => exact absurd rfl hb

/-! ## The two tables and their sum -/

attribute [local irreducible] Host.gather concatenate in
set_option maxRecDepth 8192 in
set_option maxHeartbeats 1000000 in
/-- The centre table the region finds is the reference's centre table of the arguments. -/
theorem center_eq : (V m c main_v15 : FVec Ideal S4880x56 .f32)
    = Cert.ReferenceIdeal.RefRun.centerFull (F := Ideal) (m ((c : Thread nD τ).loc main_arg0) : FVec Ideal S4880 .f32) (m ((c : Thread nD τ).loc main_arg2) : FVec Ideal S4880x28 .f32)
        (m ((c : Thread nD τ).loc main_arg4) : FVec Ideal S128x28 .f32) (m ((c : Thread nD τ).loc main_arg5) : IVec S4880 32) := by
  dsimp only [Gen.V, Gen.hostOps0]
  after_results_simp
  rfl

attribute [local irreducible] Host.gather concatenate in
set_option maxRecDepth 8192 in
set_option maxHeartbeats 1000000 in
/-- The neighbour table the region finds is the reference's neighbour table of the arguments. -/
theorem neigh_eq : (V m c main_v27 : FVec Ideal S4880x56 .f32)
    = Cert.ReferenceIdeal.RefRun.neighFull (F := Ideal) (m ((c : Thread nD τ).loc main_arg0) : FVec Ideal S4880 .f32) (m ((c : Thread nD τ).loc main_arg1) : FVec Ideal S4880 .f32)
        (m ((c : Thread nD τ).loc main_arg3) : FVec Ideal S4880x28 .f32) (m ((c : Thread nD τ).loc main_arg4) : FVec Ideal S128x28 .f32) (m ((c : Thread nD τ).loc main_arg5) : IVec S4880 32) := by
  dsimp only [Gen.V, Gen.hostOps0]
  after_results_simp
  rfl

attribute [local irreducible] Host.gather concatenate in
set_option maxRecDepth 8192 in
set_option maxHeartbeats 1000000 in
/-- The summed table is the entrywise sum of the two tables, kept at the narrower format. -/
theorem v29_eq : (V m c main_v29 : FVec Ideal S4880x56 .bf16)
    = truncf (F := Ideal) (s := S4880x56) (φ := .f32) .bf16
        (addf (F := Ideal) (s := S4880x56) (φ := .f32) (V m c main_v15) (V m c main_v27)) bitsLt_bf16_f32 := by
  rw [center_eq, neigh_eq]
  dsimp only [Gen.V, Gen.hostOps0]
  after_results_simp
  rfl

/-- The summed table at an entry is the sum of the two tables' entries there (the ideal narrowing changes nothing). -/
theorem sum_apply (k : Fin 4880) (l : Fin 56) :
    (V m c main_v29 : FVec Ideal S4880x56 .bf16) (ix2 k l)
      = HAdd.hAdd (α := Ideal .f32) (β := Ideal .f32) (γ := Ideal .f32)
          ((V m c main_v15 : FVec Ideal S4880x56 .f32) (ix2 k l)) ((V m c main_v27 : FVec Ideal S4880x56 .f32) (ix2 k l)) := by
  rw [v29_eq, truncf_apply, addf_apply]

end Cert.KernelIdeal.HostPrefix

end
-- ==== Proof.RefValue.lean ====
/-
  The reference's two outputs read at an index.

  At the ideal instance a float is an extended real and every operation is the textbook one, so each output of the
  reference, read at row `i` and column `j`, is the layer's split form: the pre-activation of node `i` is its own
  row plus its mask times the adjacency-weighted sum of the rows of its own table plus its mask times the weighted sum
  of the other table's rows; the dense layer is a 56-term sum against column `j` of the weights plus the bias; the
  rectifier tests `0 ≤ x`.

  The steps: a matrix product at an index is the sum over the inner coordinate (the contraction's index set is
  re-indexed by its one coordinate); a broadcast at an index reads its operand at the coordinates it keeps; sums,
  products, comparison and selection read through at an index by definition.
-/
import proofs.«103284_j6811818131656_2_alg».proof.Proof.RefRun
import proofs.«103284_j6811818131656_2_alg».proof.Proof.LayerSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## A plain matrix product on the host, at an index -/

/-- The host's product for the dimension numbers that contract the left operand's second axis with the right
    operand's first, at `(i, j)`: the sum over the inner coordinate `k` of `lhs (i, k) · rhs (k, j)`. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

/-! ## The layer's pieces, at an index -/

/-- A one-column matrix repeated along 56 columns reads its column. -/
theorem bc56_apply (c : FVec Ideal S4880x1 .f32) (i : Fin 4880) (l : Fin 56) :
    RefRun.bc56 c (ix2 i l) = c (ix2 i (0 : Fin 1)) := by
  unfold RefRun.bc56
  refine broadcastInDim_apply _ _ _ _ (ix2 i (0 : Fin 1)) fun a => ?_
  match a with
  | ⟨0, _⟩ => rfl
  | ⟨1, _⟩ => rfl

/-- The bias on every row reads the bias at the column. -/
theorem biasRows_apply (b : FVec Ideal S32 .f32) (i : Fin 4880) (j : Fin 32) :
    RefRun.biasRows b (ix2 i j) = b (ix1 j) := by
  unfold RefRun.biasRows
  refine (broadcastInDim_apply _ _ _ _ (ix2 (0 : Fin 1) j) fun a => ?_).trans
    (broadcastInDim_apply _ _ _ _ (ix1 j) fun a => ?_)
  · match a with
    | ⟨0, _⟩ => rfl
    | ⟨1, _⟩ => rfl
  · match a with
    | ⟨0, _⟩ => rfl

/-- The adjacency-aggregate at `(i, l)`: the adjacency row `i` against column `l` of the table. -/
theorem agg_apply (adj : FVec Ideal S4880x4880 .f32) (x : FVec Ideal S4880x56 .f32) (i : Fin 4880) (l : Fin 56) :
    RefRun.agg adj x (ix2 i l) = ∑ k : Fin 4880, adj (ix2 i k) * x (ix2 k l) :=
  dotGeneral_plain_apply 4880 4880 56 none .single adj x i l

/-- The pre-activation at `(i, l)` is the split pre-activation of the coordinate families. -/
theorem pre_apply (own other : FVec Ideal S4880x56 .f32) (c : FVec Ideal S4880x1 .f32) (adj : FVec Ideal S4880x4880 .f32)
    (i : Fin 4880) (l : Fin 56) :
    RefRun.pre own other c adj (ix2 i l)
      = Cert.Layer.splitPre (fun k l => own (ix2 k l)) (fun k l => other (ix2 k l)) (fun k => c (ix2 k (0 : Fin 1)))
          (fun i k => adj (ix2 i k)) i l := by
  unfold RefRun.pre Cert.Layer.splitPre
  show (own (ix2 i l) + RefRun.bc56 c (ix2 i l) * RefRun.agg adj own (ix2 i l))
      + RefRun.bc56 c (ix2 i l) * RefRun.agg adj other (ix2 i l) = _
  rw [bc56_apply, agg_apply, agg_apply]

/-- The dense layer at `(i, j)`: row `i` against column `j` of the weights, plus the bias at `j`. -/
theorem dense_apply (h : FVec Ideal S4880x56 .f32) (W : FVec Ideal S56x32 .f32) (b : FVec Ideal S32 .f32)
    (i : Fin 4880) (j : Fin 32) :
    RefRun.dense h W b (ix2 i j) = (∑ l : Fin 56, h (ix2 i l) * W (ix2 l j)) + b (ix1 j) := by
  unfold RefRun.dense
  show FloatOps.dotGeneral (DotDims.plain 4880 56 32) none .single h W (ix2 i j) + RefRun.biasRows b (ix2 i j) = _
  rw [dotGeneral_plain_apply, biasRows_apply]

/-- The rectifier at an index is the weak-test rectifier of the entry. -/
theorem leaky_apply (x : FVec Ideal S4880x32 .f32) (i : Fin 4880) (j : Fin 32) :
    RefRun.leaky x (ix2 i j) = Cert.Layer.leakyWeak (x (ix2 i j)) := by
  unfold RefRun.leaky Cert.Layer.leakyWeak
  show Scalar.select (Ideal.cmp .oge (x (ix2 i j))
        (broadcastInDim S4880x32 ![] bcast_S_S4880x32 (constant (F := Ideal) S_ .f32 0x00000000#32) (ix2 i j)))
      (x (ix2 i j))
      (broadcastInDim S4880x32 ![] bcast_S_S4880x32 (constant (F := Ideal) S_ .f32 0x3C23D70A#32) (ix2 i j) * x (ix2 i j)) = _
  rw [broadcastInDim_apply _ _ _ (ix2 i j) ix0 fun a => a.elim0, broadcastInDim_apply _ _ _ (ix2 i j) ix0 fun a => a.elim0]
  rfl

/-! ## The two outputs -/

/-- The centre output at `(i, j)` is the split layer of the coordinate families, the centre table in the own role. -/
theorem outCenter_apply (cf nf : FVec Ideal S4880x56 .f32) (c0 : FVec Ideal S4880x1 .f32) (adj : FVec Ideal S4880x4880 .f32)
    (W : FVec Ideal S56x32 .f32) (b : FVec Ideal S32 .f32) (i : Fin 4880) (j : Fin 32) :
    RefRun.outCenter cf nf c0 adj W b (ix2 i j)
      = Cert.Layer.splitOut (fun k l => cf (ix2 k l)) (fun k l => nf (ix2 k l)) (fun k => c0 (ix2 k (0 : Fin 1)))
          (fun i k => adj (ix2 i k)) (fun l j => W (ix2 l j)) (fun j => b (ix1 j)) i j := by
  unfold RefRun.outCenter Cert.Layer.splitOut Cert.Layer.dense
  rw [leaky_apply, dense_apply]
  refine congrArg Cert.Layer.leakyWeak (congrArg (· + b (ix1 j)) (Finset.sum_congr rfl fun l _ => ?_))
  rw [pre_apply]

/-- The neighbour output at `(i, j)`: the same layer with the neighbour table in the own role. -/
theorem outNeigh_apply (cf nf : FVec Ideal S4880x56 .f32) (c1 : FVec Ideal S4880x1 .f32) (adj : FVec Ideal S4880x4880 .f32)
    (W : FVec Ideal S56x32 .f32) (b : FVec Ideal S32 .f32) (i : Fin 4880) (j : Fin 32) :
    RefRun.outNeigh cf nf c1 adj W b (ix2 i j)
      = Cert.Layer.splitOut (fun k l => nf (ix2 k l)) (fun k l => cf (ix2 k l)) (fun k => c1 (ix2 k (0 : Fin 1)))
          (fun i k => adj (ix2 i k)) (fun l j => W (ix2 l j)) (fun j => b (ix1 j)) i j := by
  unfold RefRun.outNeigh Cert.Layer.splitOut Cert.Layer.dense
  rw [leaky_apply, dense_apply]
  refine congrArg Cert.Layer.leakyWeak (congrArg (· + b (ix1 j)) (Finset.sum_congr rfl fun l _ => ?_))
  rw [pre_apply]

end Cert.ReferenceIdeal.RefValue

end
-- ==== Proof.RealEntries.lean ====
/-
  Real-valuedness carried through array operations.

  An entry of an array of extended reals is REAL when it is neither infinity. The product and the sum of two real
  numbers are real, so the entrywise product and sum of two arrays with real entries have real entries; a change of
  float format is the identity on extended reals. Every re-indexing operation — a broadcast along axes, a gather of
  rows at clamped start indices, a concatenation of two pieces, a reshape, a transposition, a slice — produces an
  array each of whose entries IS an entry of (one of) its operand(s), so it keeps the property whatever the index
  arithmetic is: no index is ever computed here.
-/
import proofs.«103284_j6811818131656_2_alg».proof.Proof.LayerSpec
import Idealize.ShloMosaic.Lib.ValueIdx
import Idealize.ShloMosaic.Lib.Pipeline.Value

noncomputable section

namespace Cert.Layer

open Idealize.ShloMosaic

/-- Every entry of the array is a real number. -/
def AllReal {s : Shape} (v : s.Idx → EReal) : Prop := ∀ i, IsReal (v i)

/-- An array that is entrywise equal to one with real entries has real entries. -/
theorem AllReal.congr {s : Shape} {v w : s.Idx → EReal} (hv : AllReal v) (e : ∀ i, w i = v i) : AllReal w :=
  fun i => by rw [e i]; exact hv i

/-- A re-indexing of an array with real entries has real entries: each of its entries is one of the operand's. -/
theorem AllReal.comp {s t : Shape} {v : s.Idx → EReal} (hv : AllReal v) (f : t.Idx → s.Idx) : AllReal fun j => v (f j) :=
  fun j => hv (f j)

/-! ## Arithmetic -/

/-- The entrywise product of two arrays with real entries has real entries. -/
theorem AllReal.mulf {s : Shape} {φ : FTy} {a b : FVec Ideal s φ} (ha : AllReal a) (hb : AllReal b) : AllReal (mulf a b) :=
  fun i => (ha i).mul (hb i)

/-- The entrywise sum of two arrays with real entries has real entries. -/
theorem AllReal.addf {s : Shape} {φ : FTy} {a b : FVec Ideal s φ} (ha : AllReal a) (hb : AllReal b) : AllReal (addf a b) :=
  fun i => (ha i).add (hb i)

/-- A narrowing change of float format is the identity on extended reals. -/
theorem AllReal.truncf {s : Shape} {φ ψ : FTy} {a : FVec Ideal s φ} (h : ψ.bits < φ.bits) (ha : AllReal a) :
    AllReal (truncf ψ a h : FVec Ideal s ψ) :=
  fun i => ha i

/-- A widening change of float format is the identity on extended reals. -/
theorem AllReal.extf {s : Shape} {φ ψ : FTy} {a : FVec Ideal s φ} (h : φ.bits < ψ.bits) (ha : AllReal a) :
    AllReal (extf ψ a h : FVec Ideal s ψ) :=
  fun i => ha i

/-! ## Re-indexings: every output entry is an operand entry -/

/-- A broadcast along axes reads, at every result index, some entry of the operand. -/
theorem AllReal.broadcastInDim {s t : Shape} {φ : FTy} (dims : Fin s.rank → Fin t.rank) (h : s.BroadcastsInDim t dims)
    {x : FVec Ideal s φ} (hx : AllReal x) : AllReal (broadcastInDim t dims h x) :=
  fun _ => hx _

/-- A gather reads, at every result index, the operand at an index built from clamped start indices: some entry of
    the operand, whatever the start indices hold. -/
theorem AllReal.gather {so si sr : Shape} {φ : FTy} {w : Nat} (d : GatherDims so si sr) {x : FVec Ideal so φ}
    (idx : IVec si w) (hx : AllReal x) : AllReal (Host.gather d x idx) :=
  fun j => hx (d.operandIdx j idx)

/-- A reshape keeps the entries, in row-major order under another shape. -/
theorem AllReal.shapeCast {s t : Shape} {φ : FTy} {x : FVec Ideal s φ} (h : s.ShapeCasts t) (hx : AllReal x) :
    AllReal (shapeCast t x h) :=
  fun j => hx (Shape.reshapeEquiv h j)

/-- A transposition permutes the entries. -/
theorem AllReal.transpose {s t : Shape} {φ : FTy} (perm : List (Fin s.rank)) {x : FVec Ideal s φ} (h : s.Transposes perm t)
    (hx : AllReal x) : AllReal (transpose t perm x h) :=
  fun j => hx (h.src j)

/-- A property of the entries that holds of every piece of a concatenation holds of the concatenation: the result at
    an index is, by definition, one of the listed pieces read at some index. -/
theorem concatenate_forall {α : Type} (P : α → Prop) {t : Shape} (a : Fin t.rank) (xs : List ((s : Shape) × (s.Idx → α)))
    (h : Shape.Concatenates (xs.map (·.1)) t a) (hall : ∀ p ∈ xs, ∀ i, P (p.2 i)) (j : t.Idx) :
    P (concatenate t a xs h j) := by
  unfold concatenate
  exact hall _ (List.getElem_mem _) _

/-- The concatenation of two arrays with real entries has real entries: every output entry is an entry of one of the
    two pieces. -/
theorem AllReal.concatenate_pair {t s₁ s₂ : Shape} {φ : FTy} (a : Fin t.rank) {x₁ : FVec Ideal s₁ φ} {x₂ : FVec Ideal s₂ φ}
    (h : Shape.Concatenates [s₁, s₂] t a) (h₁ : AllReal x₁) (h₂ : AllReal x₂) :
    AllReal (concatenate t a [⟨s₁, x₁⟩, ⟨s₂, x₂⟩] h) := by
  refine concatenate_forall (α := EReal) IsReal a [⟨s₁, x₁⟩, ⟨s₂, x₂⟩] h (fun p hp => ?_)
  rcases List.mem_pair.1 hp with rfl | rfl
  · exact h₁
  · exact h₂

end Cert.Layer

end
-- ==== Proof.RealInputs.lean ====
/-
  The precondition "every float input is finite", decoded: the entries of the eight float input arrays are real.

  The precondition is the conjunction, over the eight float arguments, of "every entry x of the argument satisfies
  |x| < +infinity", each written as a reduction by 'and' of the entrywise comparison, from the constant 1. A reduction
  by 'and' that comes out 1 met only 1s, so the comparison holds at every entry; |x| is max x (-x) on the extended
  reals, and max x (-x) < +infinity excludes x = +infinity (the maximum would be +infinity) and x = -infinity (then
  -x = +infinity): x is a real number.
-/
import proofs.«103284_j6811818131656_2_alg».proof.Proof.RealEntries
import proofs.«103284_j6811818131656_2_alg».proof.Defs
import proofs.«103284_j6811818131656_2_alg».proof.Proof.Gen.Pre_finite_inputs
import Idealize.ShloMosaic.Lib.ReduceAll

noncomputable section

namespace Cert.Layer

open Idealize.ShloMosaic Idealize.ShloMosaic.ValueIdx Idealize.SL.Sem

/-- The scalar shape has one index. -/
instance subsingleton_scalarIdx : Subsingleton (⟨0, ![]⟩ : Shape).Idx := ⟨fun a b => funext fun d => d.elim0⟩

/-- The float pattern 0x7F800000 denotes +infinity. -/
theorem ofBits_inf : Ideal.ofBits .f32 0x7F800000#32 = ⊤ := by simp [Ideal.ofBits, Ideal.ieee]

/-- An extended real whose absolute value max x (-x) compares below +infinity is a real number. -/
theorem isReal_of_abs_lt_inf (x : EReal)
    (h : Ideal.cmp .olt (max x (-x)) (Ideal.ofBits .f32 0x7F800000#32) = 1#1) : IsReal x := by
  rw [ofBits_inf] at h
  unfold Ideal.cmp at h
  induction x using EReal.rec with
  | bot => simp at h
  | coe r => exact IsReal.coe r
  | top => simp at h

/-- One conjunct of the precondition, decoded: an array every entry of which has |x| < +infinity, as the reduction
    by 'and' over all axes says, has real entries. -/
theorem allReal_of_all_abs_lt_inf {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) : AllReal x := by
  intro i
  exact isReal_of_abs_lt_inf (x i) (Host.reduce_andi_all _ _ hr hu ix0 e i)

/-- A conjunction by 'and' of two one-bit arrays that is 1 at an index has both 1 there. -/
theorem andi_apply_eq_one {s : Shape} {a b : IVec s 1} {i : s.Idx} (h : andi a b i = 1#1) : a i = 1#1 ∧ b i = 1#1 :=
  IntOp.andi_eq_one.1 h

/-- THE PRECONDITION DECODED: on every device, each of the eight float input arrays has real entries. -/
theorem inputs_real [hP : Cert.Pre_finite_inputs.Facts]
    (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    AllReal (s := ⟨1, ![4880]⟩) (m ((c.tc : Thread Cert.KernelIdeal.nD Cert.KernelIdeal.τ).loc Cert.KernelIdeal.main_arg0))
    ∧ AllReal (s := ⟨1, ![4880]⟩) (m ((c.tc : Thread Cert.KernelIdeal.nD Cert.KernelIdeal.τ).loc Cert.KernelIdeal.main_arg1))
    ∧ AllReal (s := ⟨2, ![4880, 28]⟩) (m ((c.tc : Thread Cert.KernelIdeal.nD Cert.KernelIdeal.τ).loc Cert.KernelIdeal.main_arg2))
    ∧ AllReal (s := ⟨2, ![4880, 28]⟩) (m ((c.tc : Thread Cert.KernelIdeal.nD Cert.KernelIdeal.τ).loc Cert.KernelIdeal.main_arg3))
    ∧ AllReal (s := ⟨2, ![128, 28]⟩) (m ((c.tc : Thread Cert.KernelIdeal.nD Cert.KernelIdeal.τ).loc Cert.KernelIdeal.main_arg4))
    ∧ AllReal (s := ⟨2, ![4880, 4880]⟩) (m ((c.tc : Thread Cert.KernelIdeal.nD Cert.KernelIdeal.τ).loc Cert.KernelIdeal.main_arg6))
    ∧ AllReal (s := ⟨2, ![56, 32]⟩) (m ((c.tc : Thread Cert.KernelIdeal.nD Cert.KernelIdeal.τ).loc Cert.KernelIdeal.main_arg7))
    ∧ AllReal (s := ⟨1, ![32]⟩) (m ((c.tc : Thread Cert.KernelIdeal.nD Cert.KernelIdeal.τ).loc Cert.KernelIdeal.main_arg8)) := by
  have e := congrFun (h c) ix0
  dsimp only [Cert.Pre_finite_inputs.fn, Cert.Pre_finite_inputs.fn_part1, Cert.Pre_finite_inputs.fn_part2] at e
  obtain ⟨e, e8⟩ := andi_apply_eq_one e
  obtain ⟨e, e7⟩ := andi_apply_eq_one e
  obtain ⟨e, e6⟩ := andi_apply_eq_one e
  obtain ⟨e, e4⟩ := andi_apply_eq_one e
  obtain ⟨e, e3⟩ := andi_apply_eq_one e
  obtain ⟨e, e2⟩ := andi_apply_eq_one e
  obtain ⟨e0, e1⟩ := andi_apply_eq_one e
  exact ⟨allReal_of_all_abs_lt_inf _ _ _ _ e0, allReal_of_all_abs_lt_inf _ _ _ _ e1, allReal_of_all_abs_lt_inf _ _ _ _ e2,
    allReal_of_all_abs_lt_inf _ _ _ _ e3, allReal_of_all_abs_lt_inf _ _ _ _ e4, allReal_of_all_abs_lt_inf _ _ _ _ e6,
    allReal_of_all_abs_lt_inf _ _ _ _ e7, allReal_of_all_abs_lt_inf _ _ _ _ e8⟩

end Cert.Layer

end
-- ==== Proof.RealTables.lean ====
/-
  The reference's two feature tables and its mask column have real entries when the inputs have.

  Each table is built from the inputs by entrywise products, broadcasts along axes, gathers of rows at clamped start
  indices, and a concatenation of two pieces side by side. A product of real numbers is real; every other step only
  re-reads entries of its operand (a gather clamps its start indices into range and has no fill value, so whatever
  the category indices hold, each row it reads is a row of the table). So real inputs give real tables: no index is
  ever computed here.
-/
import proofs.«103284_j6811818131656_2_alg».proof.Proof.RealEntries
import proofs.«103284_j6811818131656_2_alg».proof.Proof.RefRun

noncomputable section

namespace Cert.Layer

open Idealize.ShloMosaic Cert.ReferenceIdeal Cert.ReferenceIdeal.Gen

/-- A real-valued vector as a one-column matrix is real-valued. -/
theorem col_real (a : FVec Ideal Cert.ReferenceIdeal.S4880 .f32) (h : AllReal a) :
    AllReal (Cert.ReferenceIdeal.RefRun.col a) := by
  unfold Cert.ReferenceIdeal.RefRun.col
  exact AllReal.broadcastInDim _ _ h

/-- A real-valued column repeated along 28 columns is real-valued. -/
theorem bc28_real (c : FVec Ideal Cert.ReferenceIdeal.S4880x1 .f32) (h : AllReal c) :
    AllReal (Cert.ReferenceIdeal.RefRun.bc28 c) := by
  unfold Cert.ReferenceIdeal.RefRun.bc28
  exact AllReal.broadcastInDim _ _ h

/-- Two real-valued 28-column tables side by side are a real-valued table. -/
theorem cat_real (a b : FVec Ideal Cert.ReferenceIdeal.S4880x28 .f32) (ha : AllReal a) (hb : AllReal b) :
    AllReal (Cert.ReferenceIdeal.RefRun.cat a b) := by
  unfold Cert.ReferenceIdeal.RefRun.cat
  exact AllReal.concatenate_pair _ _ ha hb

/-- The masked category rows are real-valued: the mask times a row of the category table, whichever row the index
    names. -/
theorem catRows_real (a0 : FVec Ideal Cert.ReferenceIdeal.S4880 .f32) (a4 : FVec Ideal Cert.ReferenceIdeal.S128x28 .f32)
    (a5 : IVec Cert.ReferenceIdeal.S4880 32) (h0 : AllReal a0) (h4 : AllReal a4) :
    AllReal (Cert.ReferenceIdeal.RefRun.catRows a0 a4 a5) := by
  unfold Cert.ReferenceIdeal.RefRun.catRows
  exact AllReal.mulf (bc28_real _ (col_real _ h0)) (AllReal.gather _ _ h4)

/-- The centre table is real-valued. -/
theorem centerFull_real (a0 : FVec Ideal Cert.ReferenceIdeal.S4880 .f32) (a2 : FVec Ideal Cert.ReferenceIdeal.S4880x28 .f32)
    (a4 : FVec Ideal Cert.ReferenceIdeal.S128x28 .f32) (a5 : IVec Cert.ReferenceIdeal.S4880 32)
    (h0 : AllReal a0) (h2 : AllReal a2) (h4 : AllReal a4) :
    AllReal (Cert.ReferenceIdeal.RefRun.centerFull a0 a2 a4 a5) := by
  unfold Cert.ReferenceIdeal.RefRun.centerFull
  exact cat_real _ _ (AllReal.mulf (bc28_real _ (col_real _ h0)) h2) (catRows_real a0 a4 a5 h0 h4)

/-- The neighbour table is real-valued. -/
theorem neighFull_real (a0 a1 : FVec Ideal Cert.ReferenceIdeal.S4880 .f32) (a3 : FVec Ideal Cert.ReferenceIdeal.S4880x28 .f32)
    (a4 : FVec Ideal Cert.ReferenceIdeal.S128x28 .f32) (a5 : IVec Cert.ReferenceIdeal.S4880 32)
    (h0 : AllReal a0) (h1 : AllReal a1) (h3 : AllReal a3) (h4 : AllReal a4) :
    AllReal (Cert.ReferenceIdeal.RefRun.neighFull a0 a1 a3 a4 a5) := by
  unfold Cert.ReferenceIdeal.RefRun.neighFull
  exact cat_real _ _ (AllReal.mulf (bc28_real _ (col_real _ h1)) h3)
    (AllReal.mulf (bc28_real _ (col_real _ h1))
      (AllReal.gather _ _ (AllReal.mulf (bc28_real _ (col_real _ h0)) (catRows_real a0 a4 a5 h0 h4))))

end Cert.Layer

end
-- ==== Proof.Bridge.lean ====
/-
  The two sides are one function.

  At an entry `(i, j)` the reference's first output is the layer in its split form — node `i`'s own row plus its mask
  times the adjacency-weighted sum of the first table's rows plus its mask times the weighted sum of the second table's
  rows, then the dense layer and the rectifier testing `0 ≤ x` —, and the kernel's is the fused form: one weighted sum
  of the entrywise sum of the two tables, the same dense layer, the rectifier testing `0 < x`. The arrays the kernel's
  region finds are the reference's own terms (the two tables are computed by the same operations; the summed table is
  their entrywise sum; the mask pair holds the two mask vectors as its columns; the bias row is the bias), and under the
  precondition every entry of the masks, the adjacency matrix and the two tables is a real number, so distributivity
  through the weighted sum applies and the split layer is the fused one. The second output is the same with the tables'
  roles exchanged and the other mask.
-/
import proofs.«103284_j6811818131656_2_alg».proof.Defs
import proofs.«103284_j6811818131656_2_alg».proof.Proof.RegionValue
import proofs.«103284_j6811818131656_2_alg».proof.Proof.HostPrefix
import proofs.«103284_j6811818131656_2_alg».proof.Proof.RefValue
import proofs.«103284_j6811818131656_2_alg».proof.Proof.RealInputs
import proofs.«103284_j6811818131656_2_alg».proof.Proof.RealTables

noncomputable section

open scoped BigOperators

namespace Cert.Proof.Bridge

open Cert.KernelIdeal Cert.KernelIdeal.Gen
open Idealize.ShloMosaic Idealize.ShloMosaic.TcCoe Idealize.SL.Sem Idealize.ShloMosaic.ValueIdx

variable [hP : Cert.Pre_finite_inputs.Facts]
variable (m : (ℓ : Loc nD τ sig) → Buf (Elt Ideal) ℓ)

/-- The reference's first output, over the kernel's argument arrays, is the first output's whole-array function. -/
theorem center_eq (hpre : Cert.Pre_KernelIdeal (hPre_finite_inputs := hP) m) (c : Dev nD) :
    Cert.ReferenceIdeal.RefRun.outCenter
        (Cert.ReferenceIdeal.RefRun.centerFull (m ((c.tc : Thread nD τ).loc main_arg0)) (m ((c.tc : Thread nD τ).loc main_arg2))
          (m ((c.tc : Thread nD τ).loc main_arg4)) (m ((c.tc : Thread nD τ).loc main_arg5)))
        (Cert.ReferenceIdeal.RefRun.neighFull (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)))
        (Cert.ReferenceIdeal.RefRun.col (m ((c.tc : Thread nD τ).loc main_arg0)))
        (m ((c.tc : Thread nD τ).loc main_arg6)) (m ((c.tc : Thread nD τ).loc main_arg7)) (m ((c.tc : Thread nD τ).loc main_arg8))
      = Cert.KernelIdeal.Region.centerOut m c := by
  obtain ⟨h0, h1, h2, h3, h4, h6, h7, h8⟩ := Cert.Layer.inputs_real m hpre c
  have hcf := Cert.Layer.centerFull_real _ _ _ (m ((c.tc : Thread nD τ).loc main_arg5)) h0 h2 h4
  have hnf := Cert.Layer.neighFull_real _ _ _ _ (m ((c.tc : Thread nD τ).loc main_arg5)) h0 h1 h3 h4
  have hcol := Cert.Layer.col_real _ h0
  funext idx
  obtain ⟨i, j, rfl⟩ : ∃ (i : Fin 4880) (j : Fin 32), idx = ix2 i j := ⟨idx 0, idx 1, eq_ix2 idx⟩
  rw [Cert.ReferenceIdeal.RefValue.outCenter_apply, Cert.KernelIdeal.Region.centerOut_apply]
  refine (Cert.Layer.splitOut_eq_fusedOut _ _ _ _ (fun k l => Cert.KernelIdeal.Region.arrSum m c (ix2 k l)) _ _
    (fun k l => hcf (ix2 k l)) (fun k l => hnf (ix2 k l)) (fun k => hcol (ix2 k (0 : Fin 1))) (fun i k => h6 (ix2 i k))
    (fun k l => ?_) i j).trans ?_
  · unfold Cert.KernelIdeal.Region.arrSum
    rw [Cert.KernelIdeal.HostPrefix.sum_apply, Cert.KernelIdeal.HostPrefix.center_eq, Cert.KernelIdeal.HostPrefix.neigh_eq]
  · have e1 : Cert.KernelIdeal.Region.arrCenter m c = Cert.ReferenceIdeal.RefRun.centerFull (m ((c.tc : Thread nD τ).loc main_arg0))
        (m ((c.tc : Thread nD τ).loc main_arg2)) (m ((c.tc : Thread nD τ).loc main_arg4)) (m ((c.tc : Thread nD τ).loc main_arg5)) :=
      Cert.KernelIdeal.HostPrefix.center_eq m c
    have e2 : ∀ k : Fin 4880, Cert.KernelIdeal.Region.arrMask m c (ix2 k (0 : Fin 2))
        = Cert.ReferenceIdeal.RefRun.col (m ((c.tc : Thread nD τ).loc main_arg0)) (ix2 k (0 : Fin 1)) := fun k =>
      (Cert.KernelIdeal.HostPrefix.mask0_apply m c k).trans (Cert.KernelIdeal.HostPrefix.col_apply _ k).symm
    have e3 : Cert.KernelIdeal.Region.arrAdj m c = m ((c.tc : Thread nD τ).loc main_arg6) := V_main_arg6 m c
    have e5 : Cert.KernelIdeal.Region.arrW m c = m ((c.tc : Thread nD τ).loc main_arg7) := V_main_arg7 m c
    have e6 : ∀ j : Fin 32, Cert.KernelIdeal.Region.arrBias m c (ix2 (0 : Fin 1) j) = m ((c.tc : Thread nD τ).loc main_arg8) (ix1 j) :=
      fun j => Cert.KernelIdeal.HostPrefix.bias_apply m c j
    rw [e1, e3, e5, funext e2, funext e6]

/-- The reference's second output, over the kernel's argument arrays, is the second output's whole-array function. -/
theorem neigh_eq (hpre : Cert.Pre_KernelIdeal (hPre_finite_inputs := hP) m) (c : Dev nD) :
    Cert.ReferenceIdeal.RefRun.outNeigh
        (Cert.ReferenceIdeal.RefRun.centerFull (m ((c.tc : Thread nD τ).loc main_arg0)) (m ((c.tc : Thread nD τ).loc main_arg2))
          (m ((c.tc : Thread nD τ).loc main_arg4)) (m ((c.tc : Thread nD τ).loc main_arg5)))
        (Cert.ReferenceIdeal.RefRun.neighFull (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)))
        (Cert.ReferenceIdeal.RefRun.col (m ((c.tc : Thread nD τ).loc main_arg1)))
        (m ((c.tc : Thread nD τ).loc main_arg6)) (m ((c.tc : Thread nD τ).loc main_arg7)) (m ((c.tc : Thread nD τ).loc main_arg8))
      = Cert.KernelIdeal.Region.neighOut m c := by
  obtain ⟨h0, h1, h2, h3, h4, h6, h7, h8⟩ := Cert.Layer.inputs_real m hpre c
  have hcf := Cert.Layer.centerFull_real _ _ _ (m ((c.tc : Thread nD τ).loc main_arg5)) h0 h2 h4
  have hnf := Cert.Layer.neighFull_real _ _ _ _ (m ((c.tc : Thread nD τ).loc main_arg5)) h0 h1 h3 h4
  have hcol := Cert.Layer.col_real _ h1
  funext idx
  obtain ⟨i, j, rfl⟩ : ∃ (i : Fin 4880) (j : Fin 32), idx = ix2 i j := ⟨idx 0, idx 1, eq_ix2 idx⟩
  rw [Cert.ReferenceIdeal.RefValue.outNeigh_apply, Cert.KernelIdeal.Region.neighOut_apply]
  refine (Cert.Layer.splitOut_eq_fusedOut _ _ _ _ (fun k l => Cert.KernelIdeal.Region.arrSum m c (ix2 k l)) _ _
    (fun k l => hnf (ix2 k l)) (fun k l => hcf (ix2 k l)) (fun k => hcol (ix2 k (0 : Fin 1))) (fun i k => h6 (ix2 i k))
    (fun k l => ?_) i j).trans ?_
  · unfold Cert.KernelIdeal.Region.arrSum
    rw [Cert.KernelIdeal.HostPrefix.sum_apply, Cert.KernelIdeal.HostPrefix.center_eq, Cert.KernelIdeal.HostPrefix.neigh_eq]
    exact add_comm _ _
  · have e1 : Cert.KernelIdeal.Region.arrNeigh m c = Cert.ReferenceIdeal.RefRun.neighFull (m ((c.tc : Thread nD τ).loc main_arg0))
        (m ((c.tc : Thread nD τ).loc main_arg1)) (m ((c.tc : Thread nD τ).loc main_arg3)) (m ((c.tc : Thread nD τ).loc main_arg4))
        (m ((c.tc : Thread nD τ).loc main_arg5)) :=
      Cert.KernelIdeal.HostPrefix.neigh_eq m c
    have e2 : ∀ k : Fin 4880, Cert.KernelIdeal.Region.arrMask m c (ix2 k (1 : Fin 2))
        = Cert.ReferenceIdeal.RefRun.col (m ((c.tc : Thread nD τ).loc main_arg1)) (ix2 k (0 : Fin 1)) := fun k =>
      (Cert.KernelIdeal.HostPrefix.mask1_apply m c k).trans (Cert.KernelIdeal.HostPrefix.col_apply _ k).symm
    have e3 : Cert.KernelIdeal.Region.arrAdj m c = m ((c.tc : Thread nD τ).loc main_arg6) := V_main_arg6 m c
    have e5 : Cert.KernelIdeal.Region.arrW m c = m ((c.tc : Thread nD τ).loc main_arg7) := V_main_arg7 m c
    have e6 : ∀ j : Fin 32, Cert.KernelIdeal.Region.arrBias m c (ix2 (0 : Fin 1) j) = m ((c.tc : Thread nD τ).loc main_arg8) (ix1 j) :=
      fun j => Cert.KernelIdeal.HostPrefix.bias_apply m c j
    rw [e1, e3, e5, funext e2, funext e6]

end Cert.Proof.Bridge

end
-- ==== Proof.lean ====
/-
  One message-passing layer computed two ways.

  The kernel tiles the 4880 nodes into ten blocks of 488 rows; for each block it multiplies the block's adjacency rows
  by the entrywise sum of the two feature tables, scales each row by the node's mask, adds the node's own features,
  applies the dense layer and a leaky rectifier that tests `0 < x`, once with the first table and the first mask and
  once with the second table and the second mask. The reference aggregates the two tables separately, adds the two
  masked aggregates one after the other, applies the same dense layer and a rectifier that tests `0 ≤ x`.

  On the extended reals the two agree wherever distributivity through the weighted sum holds, that is, where the masks,
  the adjacency entries and the table entries are real numbers — which the precondition (every float input finite)
  gives, the tables being products of finite inputs. The two rectifiers agree everywhere: they differ only in the
  branch taken at `0`, where the slope branch is `slope · 0 = 0`.

  The three frame claims are the programs' runs with the results dropped; the idealization's ledger is empty.
-/
import proofs.«103284_j6811818131656_2_alg».proof.Defs
import proofs.«103284_j6811818131656_2_alg».proof.Proof.Gen.Kernel
import proofs.«103284_j6811818131656_2_alg».proof.Proof.Gen.Kernel.Skeleton
import proofs.«103284_j6811818131656_2_alg».proof.Proof.Gen.Kernel.Launch
import proofs.«103284_j6811818131656_2_alg».proof.Proof.Gen.Kernel.Points
import proofs.«103284_j6811818131656_2_alg».proof.Proof.Gen.Kernel.Frame
import proofs.«103284_j6811818131656_2_alg».proof.Proof.Gen.KernelIdeal
import proofs.«103284_j6811818131656_2_alg».proof.Proof.Gen.KernelIdeal.Skeleton
import proofs.«103284_j6811818131656_2_alg».proof.Proof.Gen.KernelIdeal.Launch
import proofs.«103284_j6811818131656_2_alg».proof.Proof.Gen.KernelIdeal.Points
import proofs.«103284_j6811818131656_2_alg».proof.Proof.Gen.KernelIdeal.Frame
import proofs.«103284_j6811818131656_2_alg».proof.Proof.Gen.KernelIdeal.Value
import proofs.«103284_j6811818131656_2_alg».proof.Proof.Gen.ReferenceIdeal
import proofs.«103284_j6811818131656_2_alg».proof.Proof.Gen.Pre_finite_inputs
import proofs.«103284_j6811818131656_2_alg».proof.Proof.RegionValue
import proofs.«103284_j6811818131656_2_alg».proof.Proof.RefRun
import proofs.«103284_j6811818131656_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- From memories agreeing on the nine arguments both programs end with each output at one whole-array function: the
    kernel's run leaves it block by block, and the reference's two output terms are that function. -/
theorem algebraic : Cert.algebraic_KernelIdeal_ReferenceIdeal := by
  intro m ρ m' ρ' hpre hagree
  refine ⟨fun c => Cert.KernelIdeal.Region.centerOut m c, fun c => Cert.KernelIdeal.Region.neighOut m c,
    Cert.KernelIdeal.Region.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7, a8⟩ := hagree c
    rw [a0, a1, a2, a3, a4, a5, a6, a7, a8]
    exact Bridge.center_eq m hpre c
  · obtain ⟨a0, a1, a2, a3, a4, a5, a6, a7, a8⟩ := hagree c
    rw [a0, a1, a2, a3, a4, a5, a6, a7, a8]
    exact Bridge.neigh_eq m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
